-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S10000x10000 .f32) (main_arg1 : IVec S2x320000 32) (main_arg2 : FVec F S10000x64 .f32) (main_arg3 : FVec F S64 .f32) (main_arg4 : FVec F S64x64 .f32) (main_arg5 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x64 .f32 := Host.absf main_arg2
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S200x10000 : Shape := ⟨2, ![200, 10000]⟩
abbrev S200x64 : Shape := ⟨2, ![200, 64]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩

abbrev nBuf : Space → Nat
  | .hbm => 129
  | .vmem => 10
  | .smem => 0
  | _ => 0

abbrev hbmTy0_0 (i : Nat) : BufTy := match i % 128 with
  | 0 => ⟨S10000x10000, .f32⟩
  | 1 => ⟨S2x320000, .i32⟩
  | 2 => ⟨S10000x64, .f32⟩
  | 3 => ⟨S64, .f32⟩
  | 4 => ⟨S64x64, .f32⟩
  | 5 => ⟨S64, .f32⟩
  | 6 => ⟨S10000x64, .f32⟩
  | 7 => ⟨S1x320000, .i32⟩
  | 8 => ⟨S320000, .i32⟩
  | 9 => ⟨S1x320000, .i32⟩
  | 10 => ⟨S320000, .i32⟩
  | 11 => ⟨S10000, .i32⟩
  | 12 => ⟨S330000, .i32⟩
  | 13 => ⟨S330000, .i32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000x64, .f32⟩
  | 56 => ⟨S330000x1, .f32⟩
  | 57 => ⟨S330000x64, .f32⟩
  | 58 => ⟨S330000x64, .f32⟩
  | 59 => ⟨S_, .f32⟩
  | 60 => ⟨S10000x64, .f32⟩
  | 61 => ⟨S330000x1, .i32⟩
  | 62 => ⟨S10000x64, .f32⟩
  | 63 => ⟨S1x64, .f32⟩
  | 64 => ⟨S10000x64, .f32⟩
  | 65 => ⟨S10000x64, .f32⟩
  | 66 => ⟨S_, .f32⟩
  | 67 => ⟨S10000x64, .f32⟩
  | 68 => ⟨S10000x64, .f32⟩
  | 69 => ⟨S10000x64, .f32⟩
  | 70 => ⟨S1x320000, .i32⟩
  | 71 => ⟨S320000, .i32⟩
  | 72 => ⟨S1x320000, .i32⟩
  | 73 => ⟨S320000, .i32⟩
  | 74 => ⟨S10000, .i32⟩
  | 75 => ⟨S330000, .i32⟩
  | 76 => ⟨S330000, .i32⟩
  | 77 => ⟨S_, .f32⟩
  | 78 => ⟨S330000, .f32⟩
  | 79 => ⟨S_, .f32⟩
  | 80 => ⟨S10000, .f32⟩
  | 81 => ⟨S330000x1, .i32⟩
  | 82 => ⟨S10000, .f32⟩
  | 83 => ⟨S_, .f32⟩
  | 84 => ⟨S10000, .f32⟩
  | 85 => ⟨S10000, .i1⟩
  | 86 => ⟨S10000, .f32⟩
  | 87 => ⟨S_, .f32⟩
  | 88 => ⟨S_, .f32⟩
  | 89 => ⟨S10000, .f32⟩
  | 90 => ⟨S10000, .f32⟩
  | 91 => ⟨S_, .i32⟩
  | 92 => ⟨S330000, .i32⟩
  | 93 => ⟨S330000, .i1⟩
  | 94 => ⟨S_, .i32⟩
  | 95 => ⟨S330000, .i32⟩
  | 96 => ⟨S330000, .i32⟩
  | 97 => ⟨S330000, .i32⟩
  | 98 => ⟨S330000x1, .i32⟩
  | 99 => ⟨S330000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000, .f32⟩
  | 109 => ⟨S330000, .f32⟩
  | 110 => ⟨S_, .i32⟩
  | 111 => ⟨S330000, .i32⟩
  | 112 => ⟨S330000, .i1⟩
  | 113 => ⟨S_, .i32⟩
  | 114 => ⟨S330000, .i32⟩
  | 115 => ⟨S330000, .i32⟩
  | 116 => ⟨S330000, .i32⟩
  | 117 => ⟨S330000x1, .i32⟩
  | 118 => ⟨S330000x64, .f32⟩
  | 119 => ⟨S330000x1, .f32⟩
  | 120 => ⟨S330000x64, .f32⟩
  | 121 => ⟨S330000x64, .f32⟩
  | 122 => ⟨S_, .f32⟩
  | 123 => ⟨S10000x64, .f32⟩
  | 124 => ⟨S330000x1, .i32⟩
  | 125 => ⟨S10000x64, .f32⟩
  | 126 => ⟨S1x64, .f32⟩
  | 127 => ⟨S10000x64, .f32⟩
  | _ => ⟨S10000x10000, .f32⟩

abbrev hbmTy0_1 (i : Nat) : BufTy := match i % 128 with
  | 0 => ⟨S10000x64, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | .local _ .vmem, ⟨0, _⟩ => ⟨S200x10000, .f32⟩
  | .local _ .vmem, ⟨1, _⟩ => ⟨S200x10000, .f32⟩
  | .local _ .vmem, ⟨2, _⟩ => ⟨S10000x64, .f32⟩
  | .local _ .vmem, ⟨3, _⟩ => ⟨S200x64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | .local _ .vmem, ⟨7, _⟩ => ⟨S64x64, .f32⟩
  | .local _ .vmem, ⟨8, _⟩ => ⟨S200x64, .f32⟩
  | .local _ .vmem, ⟨9, _⟩ => ⟨S200x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x64_S10000x64_0_0 : ∀ a, (![0, 0] : Fin 2 → Nat) a + S10000x64.size a ≤ S10000x64.size a
  h_S10000x64 : 0 < S10000x64.numel
  inb_S200x64_S200x64_0_0 : ∀ a, (![0, 0] : Fin 2 → Nat) a + S200x64.size a ≤ S200x64.size a
  h_S200x64 : 0 < S200x64.numel
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  shapeCasts_S200x64_S200x64 : S200x64.ShapeCasts S200x64
  inb_S64x64_S64x64_0_0 : ∀ a, (![0, 0] : Fin 2 → Nat) a + S64x64.size a ≤ S64x64.size a
  h_S64x64 : 0 < S64x64.numel
  dot_S200x10000_S10000x64_S200x64_1_0_0_1_n_n_wf : DotDims.WF S200x10000 S10000x64 S200x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S200x64_S64x64_S200x64_1_0_0_1_n_n_wf : DotDims.WF S200x64 S64x64 S200x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .f32 = 32 ∨ (Rect.block (s := S10000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x64.size a ≤ S10000x64.size a
  hwx1_0 : ∀ i : grid1.Coords, EltTy.bits .f32 = 32 ∨ (Rect.block (s := S10000x64) S200x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x64.size a ≤ S10000x64.size a
  hwx1_2 : ∀ i : grid1.Coords, EltTy.bits .f32 = 32 ∨ (Rect.block (s := S10000x64) S200x64.size (cc1_transform_2 i) (hinb1_2 i)).WholeWords (EltTy.packing .f32)

variable [Facts₀]

def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S200x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S200x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S200x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S2x320000 : Shape := ⟨2, ![2, 320000]⟩
abbrev S10000x64 : Shape := ⟨2, ![10000, 64]⟩
abbrev S64 : Shape := ⟨1, ![64]⟩
abbrev S64x64 : Shape := ⟨2, ![64, 64]⟩
abbrev S1x320000 : Shape := ⟨2, ![1, 320000]⟩
abbrev S320000 : Shape := ⟨1, ![320000]⟩
abbrev S10000 : Shape := ⟨1, ![10000]⟩
abbrev S330000 : Shape := ⟨1, ![330000]⟩
abbrev S_ : Shape := ⟨0, ![]⟩
abbrev S330000x1 : Shape := ⟨2, ![330000, 1]⟩
abbrev S330000x64 : Shape := ⟨2, ![330000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S10000x10000, .f32⟩
  | 1 => ⟨S2x320000, .i32⟩
  | 2 => ⟨S10000x64, .f32⟩
  | 3 => ⟨S64, .f32⟩
  | 4 => ⟨S64x64, .f32⟩
  | 5 => ⟨S64, .f32⟩
  | 6 => ⟨S10000x64, .f32⟩
  | 7 => ⟨S1x320000, .i32⟩
  | 8 => ⟨S320000, .i32⟩
  | 9 => ⟨S1x320000, .i32⟩
  | 10 => ⟨S320000, .i32⟩
  | 11 => ⟨S10000, .i32⟩
  | 12 => ⟨S330000, .i32⟩
  | 13 => ⟨S330000, .i32⟩
  | 14 => ⟨S_, .f32⟩
  | 15 => ⟨S330000, .f32⟩
  | 16 => ⟨S_, .f32⟩
  | 17 => ⟨S10000, .f32⟩
  | 18 => ⟨S330000x1, .i32⟩
  | 19 => ⟨S10000, .f32⟩
  | 20 => ⟨S_, .f32⟩
  | 21 => ⟨S10000, .f32⟩
  | 22 => ⟨S10000, .i1⟩
  | 23 => ⟨S10000, .f32⟩
  | 24 => ⟨S_, .f32⟩
  | 25 => ⟨S_, .f32⟩
  | 26 => ⟨S10000, .f32⟩
  | 27 => ⟨S10000, .f32⟩
  | 28 => ⟨S_, .i32⟩
  | 29 => ⟨S330000, .i32⟩
  | 30 => ⟨S330000, .i1⟩
  | 31 => ⟨S_, .i32⟩
  | 32 => ⟨S330000, .i32⟩
  | 33 => ⟨S330000, .i32⟩
  | 34 => ⟨S330000, .i32⟩
  | 35 => ⟨S330000x1, .i32⟩
  | 36 => ⟨S330000, .f32⟩
  | 37 => ⟨S_, .i32⟩
  | 38 => ⟨S330000, .i32⟩
  | 39 => ⟨S330000, .i1⟩
  | 40 => ⟨S_, .i32⟩
  | 41 => ⟨S330000, .i32⟩
  | 42 => ⟨S330000, .i32⟩
  | 43 => ⟨S330000, .i32⟩
  | 44 => ⟨S330000x1, .i32⟩
  | 45 => ⟨S330000, .f32⟩
  | 46 => ⟨S330000, .f32⟩
  | 47 => ⟨S_, .i32⟩
  | 48 => ⟨S330000, .i32⟩
  | 49 => ⟨S330000, .i1⟩
  | 50 => ⟨S_, .i32⟩
  | 51 => ⟨S330000, .i32⟩
  | 52 => ⟨S330000, .i32⟩
  | 53 => ⟨S330000, .i32⟩
  | 54 => ⟨S330000x1, .i32⟩
  | 55 => ⟨S330000x64, .f32⟩
  | 56 => ⟨S330000x1, .f32⟩
  | 57 => ⟨S330000x64, .f32⟩
  | 58 => ⟨S330000x64, .f32⟩
  | 59 => ⟨S_, .f32⟩
  | 60 => ⟨S10000x64, .f32⟩
  | 61 => ⟨S330000x1, .i32⟩
  | 62 => ⟨S10000x64, .f32⟩
  | 63 => ⟨S1x64, .f32⟩
  | 64 => ⟨S10000x64, .f32⟩
  | 65 => ⟨S10000x64, .f32⟩
  | 66 => ⟨S_, .f32⟩
  | 67 => ⟨S10000x64, .f32⟩
  | 68 => ⟨S10000x64, .f32⟩
  | 69 => ⟨S10000x64, .f32⟩
  | 70 => ⟨S1x320000, .i32⟩
  | 71 => ⟨S320000, .i32⟩
  | 72 => ⟨S1x320000, .i32⟩
  | 73 => ⟨S320000, .i32⟩
  | 74 => ⟨S10000, .i32⟩
  | 75 => ⟨S330000, .i32⟩
  | 76 => ⟨S330000, .i32⟩
  | 77 => ⟨S_, .f32⟩
  | 78 => ⟨S330000, .f32⟩
  | 79 => ⟨S_, .f32⟩
  | 80 => ⟨S10000, .f32⟩
  | 81 => ⟨S330000x1, .i32⟩
  | 82 => ⟨S10000, .f32⟩
  | 83 => ⟨S_, .f32⟩
  | 84 => ⟨S10000, .f32⟩
  | 85 => ⟨S10000, .i1⟩
  | 86 => ⟨S10000, .f32⟩
  | 87 => ⟨S_, .f32⟩
  | 88 => ⟨S_, .f32⟩
  | 89 => ⟨S10000, .f32⟩
  | 90 => ⟨S10000, .f32⟩
  | 91 => ⟨S_, .i32⟩
  | 92 => ⟨S330000, .i32⟩
  | 93 => ⟨S330000, .i1⟩
  | 94 => ⟨S_, .i32⟩
  | 95 => ⟨S330000, .i32⟩
  | 96 => ⟨S330000, .i32⟩
  | 97 => ⟨S330000, .i32⟩
  | 98 => ⟨S330000x1, .i32⟩
  | 99 => ⟨S330000, .f32⟩
  | 100 => ⟨S_, .i32⟩
  | 101 => ⟨S330000, .i32⟩
  | 102 => ⟨S330000, .i1⟩
  | 103 => ⟨S_, .i32⟩
  | 104 => ⟨S330000, .i32⟩
  | 105 => ⟨S330000, .i32⟩
  | 106 => ⟨S330000, .i32⟩
  | 107 => ⟨S330000x1, .i32⟩
  | 108 => ⟨S330000, .f32⟩
  | 109 => ⟨S330000, .f32⟩
  | 110 => ⟨S_, .i32⟩
  | 111 => ⟨S330000, .i32⟩
  | 112 => ⟨S330000, .i1⟩
  | 113 => ⟨S_, .i32⟩
  | 114 => ⟨S330000, .i32⟩
  | 115 => ⟨S330000, .i32⟩
  | 116 => ⟨S330000, .i32⟩
  | 117 => ⟨S330000x1, .i32⟩
  | 118 => ⟨S330000x64, .f32⟩
  | 119 => ⟨S330000x1, .f32⟩
  | 120 => ⟨S330000x64, .f32⟩
  | 121 => ⟨S330000x64, .f32⟩
  | 122 => ⟨S_, .f32⟩
  | 123 => ⟨S10000x64, .f32⟩
  | 124 => ⟨S330000x1, .i32⟩
  | 125 => ⟨S10000x64, .f32⟩
  | 126 => ⟨S1x64, .f32⟩
  | 127 => ⟨S10000x64, .f32⟩
  | _ => ⟨S10000x10000, .f32⟩

abbrev hbmTy0_1 (i : Nat) : BufTy := match i % 128 with
  | 0 => ⟨S10000x64, .f32⟩
  | _ => ⟨S10000x10000, .f32⟩

abbrev hbmTy (i : Nat) : BufTy := match i / 128 with
  | 0 => hbmTy0_0 i
  | 1 => hbmTy0_1 i
  | _ => ⟨S10000x10000, .f32⟩

abbrev bufTy : (tb : Table) → Fin (tcTables nBuf tb) → BufTy
  | .hbm, ⟨i, _⟩ => hbmTy i
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x10000_S10000x64_S10000x64_1_0_0_1_n_n_wf : DotDims.WF S10000x10000 S10000x64 S10000x64 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []

variable [Facts₀]

def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KernelRun.lean ====
/-
  The idealized kernel's run with its result named.

  The program is two pipelined matrix products with stretches of host operations after each. Its run is a chain of
  nine segments (a region, four host stretches, a region, three host stretches); the contents of the TensorCore's
  buffers at each boundary are a fold from the launch memory, and the last boundary's contents are what every
  unscoped buffer holds in any final state. Read at the result buffer this names the program's result; read at an
  argument it walks back to the launch contents.
-/
import proofs.«127322_j82918638617247_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_result : θ_run defs (onTc (τ := τ) (main (F := F))) ⟨m, fun _ => 0, ρ⟩ (fun r => ∀ c : Dev nD,
      r.2.mem ((c.tc : Thread nD τ).loc main_v94) = W9 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v94 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Run

end
-- ==== Proof.KernelAggregate.lean ====
/-
  The idealized kernel's two stretches of host operations, each as one function of the buffers it reads.

  After each pipelined product the host runs a graph convolution's aggregation: it builds the edge list's source
  and target node lists (with self loops), the in-degrees and their inverse square roots, the edge weights, gathers
  the product's rows along the edges, scales them, adds them up at the targets and adds the bias; after the first
  aggregation it applies the rectifier. Read back through the fold of those operations, the buffer each stretch
  ends in is `rectified (conv h ei b)`, respectively `conv h ei b`, of the product `h`, the edge list `ei` and the bias `b`
  as the stretch finds them.
-/
import proofs.«127322_j82918638617247_1_alg».proof.Proof.Gen.KernelIdeal.Frame
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

/-- The edges' sources as a flat list of 320000 node numbers, followed by the 10000 self loops 0, 1, …, 9999. -/
def sources (ei : (⟨S2x320000, .i32⟩ : BufTy).Contents (Elt F)) : (⟨S330000, .i32⟩ : BufTy).Contents (Elt F) :=
  concatenate S330000 0
    [⟨S320000, shapeCast S320000 (extractStridedSlice S1x320000 ![0, 0] ei slices_S2x320000_S1x320000_0_0) shapeCasts_S1x320000_S320000⟩,
     ⟨S10000, iotaInDim S10000 32 0⟩] concatenates_S320000_S10000_S330000_d0

/-- The edges' targets, followed by the same self loops. -/
def targets (ei : (⟨S2x320000, .i32⟩ : BufTy).Contents (Elt F)) : (⟨S330000, .i32⟩ : BufTy).Contents (Elt F) :=
  concatenate S330000 0
    [⟨S320000, shapeCast S320000 (extractStridedSlice S1x320000 ![1, 0] ei slices_S2x320000_S1x320000_1_0) shapeCasts_S1x320000_S320000⟩,
     ⟨S10000, iotaInDim S10000 32 0⟩] concatenates_S320000_S10000_S330000_d0

/-- A node number as the host's indexing reads it: a negative one counts back from the 10000 nodes. -/
def wrapped (ix : (⟨S330000, .i32⟩ : BufTy).Contents (Elt F)) : (⟨S330000, .i32⟩ : BufTy).Contents (Elt F) :=
  select (cmpi .slt ix (broadcastInDim S330000 ![] bcast_S_S330000 (constantI S_ 32 0#32)))
    (addi ix (broadcastInDim S330000 ![] bcast_S_S330000 (constantI S_ 32 10000#32))) ix

/-- Every node's in-degree, self loop included: a one added at each edge's target. -/
def degree (dst : (⟨S330000, .i32⟩ : BufTy).Contents (Elt F)) : (⟨S10000, .f32⟩ : BufTy).Contents (Elt F) :=
  Host.scatterAdd scatter_S10000_S330000x1_S330000_n_0_0_1
    (broadcastInDim S10000 ![] bcast_S_S10000 (constant (F := F) S_ .f32 0x00000000#32))
    (broadcastInDim S330000x1 ![0] bcast_S330000_S330000x1_0 dst)
    (broadcastInDim S330000 ![] bcast_S_S330000 (constant (F := F) S_ .f32 0x3F800000#32))

/-- deg^(-1/2) where the degree is positive, 0 elsewhere. -/
def invSqrtDegree (dst : (⟨S330000, .i32⟩ : BufTy).Contents (Elt F)) : (⟨S10000, .f32⟩ : BufTy).Contents (Elt F) :=
  select (cmpf .ogt (degree dst) (broadcastInDim S10000 ![] bcast_S_S10000 (constant (F := F) S_ .f32 0x00000000#32)))
    (Host.rsqrt (degree dst))
    (broadcastInDim S10000 ![] bcast_S_S10000 (id (constant (F := F) S_ .f32 0x00000000#32)))

/-- An edge's weight: deg^(-1/2) of its source times deg^(-1/2) of its target. -/
def edgeWeight (src dst : (⟨S330000, .i32⟩ : BufTy).Contents (Elt F)) : (⟨S330000, .f32⟩ : BufTy).Contents (Elt F) :=
  mulf
    (Host.gather gather_S10000_S330000x1_S330000_n_0_n_n_0_1_1 (invSqrtDegree dst)
      (broadcastInDim S330000x1 ![0] bcast_S330000_S330000x1_0 (wrapped src)))
    (Host.gather gather_S10000_S330000x1_S330000_n_0_n_n_0_1_1 (invSqrtDegree dst)
      (broadcastInDim S330000x1 ![0] bcast_S330000_S330000x1_0 (wrapped dst)))

/-- The aggregation: every edge carries its source's row of `h`, scaled by the edge's weight, to its target, where
    the rows are added up; then the bias row is added to every node's row. -/
def aggregate (h : (⟨S10000x64, .f32⟩ : BufTy).Contents (Elt F)) (src dst : (⟨S330000, .i32⟩ : BufTy).Contents (Elt F))
    (b : (⟨S64, .f32⟩ : BufTy).Contents (Elt F)) : (⟨S10000x64, .f32⟩ : BufTy).Contents (Elt F) :=
  addf
    (Host.scatterAdd scatter_S10000x64_S330000x1_S330000x64_1_0_0_1
      (broadcastInDim S10000x64 ![] bcast_S_S10000x64 (constant (F := F) S_ .f32 0x00000000#32))
      (broadcastInDim S330000x1 ![0] bcast_S330000_S330000x1_0 dst)
      (mulf
        (Host.gather gather_S10000x64_S330000x1_S330000x64_1_0_n_n_0_1_164 h
          (broadcastInDim S330000x1 ![0] bcast_S330000_S330000x1_0 (wrapped src)))
        (broadcastInDim S330000x64 ![0, 1] bcast_S330000x1_S330000x64_0_1
          (broadcastInDim S330000x1 ![0] bcast_S330000_S330000x1_0 (edgeWeight src dst)))))
    (broadcastInDim S10000x64 ![0, 1] bcast_S1x64_S10000x64_0_1 (broadcastInDim S1x64 ![1] bcast_S64_S1x64_1 b))

/-- One graph convolution's aggregation of the node features `h` over the edge list `ei`, with bias `b`. -/
def conv (h : (⟨S10000x64, .f32⟩ : BufTy).Contents (Elt F)) (ei : (⟨S2x320000, .i32⟩ : BufTy).Contents (Elt F))
    (b : (⟨S64, .f32⟩ : BufTy).Contents (Elt F)) : (⟨S10000x64, .f32⟩ : BufTy).Contents (Elt F) :=
  aggregate h (sources ei) (targets ei) b

/-- The rectifier: the larger of an entry and zero. -/
def rectified (x : (⟨S10000x64, .f32⟩ : BufTy).Contents (Elt F)) : (⟨S10000x64, .f32⟩ : BufTy).Contents (Elt F) :=
  maximumf x (broadcastInDim S10000x64 ![] bcast_S_S10000x64 (constant (F := F) S_ .f32 0x00000000#32))

/-! ## The first stretch -/

/-- The first stretch's operations that build the two node lists. -/
abbrev indexOps1 : List (HloOp τ sig (Elt F)) :=
  [ StableHlo.unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v1 main_v2 rfl shapeCasts_S1x320000_S320000,
    StableHlo.unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v3 main_v4 rfl shapeCasts_S1x320000_S320000,
    StableHlo.nullary main_v5 (iotaInDim S10000 32 0),
    StableHlo.binary main_v2 main_v5 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v4 main_v5 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- The rest of the first stretch's leading operations: constants, the in-degrees, their inverse square roots. -/
abbrev degreeOps1 : List (HloOp τ sig (Elt F)) :=
  [ StableHlo.nullary main_cst (constant S_ .f32 0x3F800000#32),
    StableHlo.unary main_cst main_v8 (broadcastInDim S330000 ![] bcast_S_S330000 : (⟨S_, .f32⟩ : BufTy).Contents (Elt F) → (⟨S330000, .f32⟩ : BufTy).Contents (Elt F)),
    StableHlo.nullary main_cst_0 (constant S_ .f32 0x00000000#32),
    StableHlo.unary main_cst_0 main_v9 (broadcastInDim S10000 ![] bcast_S_S10000 : (⟨S_, .f32⟩ : BufTy).Contents (Elt F) → (⟨S10000, .f32⟩ : BufTy).Contents (Elt F)),
    StableHlo.unary main_v7 main_v10 (broadcastInDim S330000x1 ![0] bcast_S330000_S330000x1_0 : (⟨S330000, .i32⟩ : BufTy).Contents (Elt F) → (⟨S330000x1, .i32⟩ : BufTy).Contents (Elt F)),
    StableHlo.ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_1 (constant S_ .f32 0x00000000#32),
    StableHlo.unary main_cst_1 main_v12 (broadcastInDim S10000 ![] bcast_S_S10000 : (⟨S_, .f32⟩ : BufTy).Contents (Elt F) → (⟨S10000, .f32⟩ : BufTy).Contents (Elt F)),
    StableHlo.binary main_v11 main_v12 main_v13 (cmpf .ogt : (⟨S10000, .f32⟩ : BufTy).Contents (Elt F) → (⟨S10000, .f32⟩ : BufTy).Contents (Elt F) → (⟨S10000, .i1⟩ : BufTy).Contents (Elt F)),
    StableHlo.unary main_v11 main_v14 (Host.rsqrt : (⟨S10000, .f32⟩ : BufTy).Contents (Elt F) → (⟨S10000, .f32⟩ : BufTy).Contents (Elt F)),
    StableHlo.nullary main_cst_2 (constant S_ .f32 0x00000000#32) ]

/-- What the buffer of the rectified first aggregation holds after the first stretch, from any contents `W`. -/
theorem layer1 (W : Valuation τ sig (Elt F)) :
    after (hostOps1_3 (F := F)) (after (hostOps1_2 (F := F)) (after (hostOps1_1 (F := F)) (after (hostOps1 (F := F)) W))) (Proc.devRef .tc main_v47)
      = rectified (conv (W (Proc.devRef .tc main_v0)) (W (Proc.devRef .tc main_arg1)) (W (Proc.devRef .tc main_arg3))) := by
  have h6 : after (indexOps1 (F := F)) W (Proc.devRef .tc main_v6) = sources (W (Proc.devRef .tc main_arg1)) := by
    after_results; rfl
  have h7 : after (indexOps1 (F := F)) W (Proc.devRef .tc main_v7) = targets (W (Proc.devRef .tc main_arg1)) := by
    after_results; rfl
  have h0 : after (indexOps1 (F := F)) W (Proc.devRef .tc main_v0) = W (Proc.devRef .tc main_v0) := by
    after_results
  have h3 : after (indexOps1 (F := F)) W (Proc.devRef .tc main_arg3) = W (Proc.devRef .tc main_arg3) := by
    after_results
  show after (hostOps1_3 (F := F)) (after (hostOps1_2 (F := F)) (after (hostOps1_1 (F := F)) (after (degreeOps1 (F := F)) (after (indexOps1 (F := F)) W)))) (Proc.devRef .tc main_v47) = _
  generalize after (indexOps1 (F := F)) W = Wa at h6 h7 h0 h3 ⊢
  after_results_simp
  rw [h6, h7, h0, h3]
  rfl

/-! ## The second stretch -/

/-- The second stretch's operations that build the two node lists. -/
abbrev indexOps2 : List (HloOp τ sig (Elt F)) :=
  [ StableHlo.unary main_arg1 main_v49 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v49 main_v50 rfl shapeCasts_S1x320000_S320000,
    StableHlo.unary main_arg1 main_v51 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v51 main_v52 rfl shapeCasts_S1x320000_S320000,
    StableHlo.nullary main_v53 (iotaInDim S10000 32 0),
    StableHlo.binary main_v50 main_v53 main_v54 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    StableHlo.binary main_v52 main_v53 main_v55 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- The rest of the second stretch's leading operations. -/
abbrev degreeOps2 : List (HloOp τ sig (Elt F)) :=
  [ StableHlo.nullary main_cst_9 (constant S_ .f32 0x3F800000#32),
    StableHlo.unary main_cst_9 main_v56 (broadcastInDim S330000 ![] bcast_S_S330000 : (⟨S_, .f32⟩ : BufTy).Contents (Elt F) → (⟨S330000, .f32⟩ : BufTy).Contents (Elt F)),
    StableHlo.nullary main_cst_10 (constant S_ .f32 0x00000000#32),
    StableHlo.unary main_cst_10 main_v57 (broadcastInDim S10000 ![] bcast_S_S10000 : (⟨S_, .f32⟩ : BufTy).Contents (Elt F) → (⟨S10000, .f32⟩ : BufTy).Contents (Elt F)),
    StableHlo.unary main_v55 main_v58 (broadcastInDim S330000x1 ![0] bcast_S330000_S330000x1_0 : (⟨S330000, .i32⟩ : BufTy).Contents (Elt F) → (⟨S330000x1, .i32⟩ : BufTy).Contents (Elt F)),
    StableHlo.ternary main_v57 main_v58 main_v56 main_v59 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    StableHlo.nullary main_cst_11 (constant S_ .f32 0x00000000#32),
    StableHlo.unary main_cst_11 main_v60 (broadcastInDim S10000 ![] bcast_S_S10000 : (⟨S_, .f32⟩ : BufTy).Contents (Elt F) → (⟨S10000, .f32⟩ : BufTy).Contents (Elt F)),
    StableHlo.binary main_v59 main_v60 main_v61 (cmpf .ogt : (⟨S10000, .f32⟩ : BufTy).Contents (Elt F) → (⟨S10000, .f32⟩ : BufTy).Contents (Elt F) → (⟨S10000, .i1⟩ : BufTy).Contents (Elt F)),
    StableHlo.unary main_v59 main_v62 (Host.rsqrt : (⟨S10000, .f32⟩ : BufTy).Contents (Elt F) → (⟨S10000, .f32⟩ : BufTy).Contents (Elt F)),
    StableHlo.nullary main_cst_12 (constant S_ .f32 0x00000000#32) ]

/-- What the result buffer holds after the second stretch, from any contents `W`. -/
theorem layer2 (W : Valuation τ sig (Elt F)) :
    after (hostOps2_2 (F := F)) (after (hostOps2_1 (F := F)) (after (hostOps2 (F := F)) W)) (Proc.devRef .tc main_v94)
      = conv (W (Proc.devRef .tc main_v48)) (W (Proc.devRef .tc main_arg1)) (W (Proc.devRef .tc main_arg5)) := by
  have h6 : after (indexOps2 (F := F)) W (Proc.devRef .tc main_v54) = sources (W (Proc.devRef .tc main_arg1)) := by
    after_results; rfl
  have h7 : after (indexOps2 (F := F)) W (Proc.devRef .tc main_v55) = targets (W (Proc.devRef .tc main_arg1)) := by
    after_results; rfl
  have h0 : after (indexOps2 (F := F)) W (Proc.devRef .tc main_v48) = W (Proc.devRef .tc main_v48) := by
    after_results
  have h3 : after (indexOps2 (F := F)) W (Proc.devRef .tc main_arg5) = W (Proc.devRef .tc main_arg5) := by
    after_results
  show after (hostOps2_2 (F := F)) (after (hostOps2_1 (F := F)) (after (degreeOps2 (F := F)) (after (indexOps2 (F := F)) W))) (Proc.devRef .tc main_v94) = _
  generalize after (indexOps2 (F := F)) W = Wa at h6 h7 h0 h3 ⊢
  after_results_simp
  rw [h6, h7, h0, h3]
  rfl

/-- A buffer the first stretch does not write is as the stretch found it. -/
theorem layer1_keeps_arg1 (W : Valuation τ sig (Elt F)) :
    after (hostOps1_3 (F := F)) (after (hostOps1_2 (F := F)) (after (hostOps1_1 (F := F)) (after (hostOps1 (F := F)) W))) (Proc.devRef .tc main_arg1)
      = W (Proc.devRef .tc main_arg1) := by
  after_results_simp
theorem layer1_keeps_arg4 (W : Valuation τ sig (Elt F)) :
    after (hostOps1_3 (F := F)) (after (hostOps1_2 (F := F)) (after (hostOps1_1 (F := F)) (after (hostOps1 (F := F)) W))) (Proc.devRef .tc main_arg4)
      = W (Proc.devRef .tc main_arg4) := by
  after_results_simp
theorem layer1_keeps_arg5 (W : Valuation τ sig (Elt F)) :
    after (hostOps1_3 (F := F)) (after (hostOps1_2 (F := F)) (after (hostOps1_1 (F := F)) (after (hostOps1 (F := F)) W))) (Proc.devRef .tc main_arg5)
      = W (Proc.devRef .tc main_arg5) := by
  after_results_simp

end Cert.KernelIdeal.Aggregate

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«127322_j82918638617247_1_alg».proof.Proof.LibPlainMatmul
import proofs.«127322_j82918638617247_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.Product0.lean ====
/-
  The first pipelined product: what its output array holds after the region.

  The grid has 50 points. At point t the body is handed rows 200·t … 200·t + 199 of the left operand (all 10000 columns)
  and the whole right operand, multiplies them on the matrix unit into an accumulator of zeros, and its 200 × 64
  result is written back as rows 200·t … 200·t + 199 of the output. An entry of a matrix product depends on one row of
  the left factor and one column of the right factor only, so each written block is that block of the product of the
  WHOLE arrays; the 50 blocks tile the 10000 rows, so the output array ends holding the whole product.
-/
import proofs.«127322_j82918638617247_1_alg».proof.Proof.Gen.KernelIdeal.Frame
import proofs.«127322_j82918638617247_1_alg».proof.Proof.LibMatrixProduct
import Idealize.ShloMosaic.Lib.Pipeline.Value

set_option maxRecDepth 16384

noncomputable section

namespace Cert.KernelIdeal.Product0

open Cert.KernelIdeal Cert.KernelIdeal.Gen Cert.MatrixProduct
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the matrix product of its two loaded blocks: narrowing the operands to bf16 changes
    nothing at the exact extended reals, and the product into zeros is the plain sum of products. -/
theorem payload_eq (x0 : Vec Ideal S200x10000 .f32) (x1 : Vec Ideal S10000x64 .f32) :
    k0_pay1 (F := Ideal) x0 x1 = mm x0 x1 := by
  unfold k0_pay1
  exact matmul_zero_eq_mm _ none _ _

/-- The windows' block indices over the grid: the left operand's and the output's row block is the point itself, every
    column block and the right operand's blocks are block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays as the region finds them. -/
theorem flushed_eq (c : Dev nD) (t : Fin cfg0.N) :
    (dat0 V c).flushed 2 t
      = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S200x10000) zero_offsets, View.ld_unit_zero (S := S10000x64) zero_offsets]
  rw [payload_eq]
  obtain ⟨e0, e1, e2, e3, e4, e5⟩ := block_indices t
  funext j
  show mm (iblk0 V c 0 t) (iblk0 V c 1 t) j = mm (V c main_arg0) (V c main_arg2) (((cfg0.win 2).blk t).view.emb j)
  refine mm_of_row_col (V c main_arg0) (V c main_arg2) _ _ j _ (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 200 + 1 * (j 0).val = win0_2.index t (0 : Fin 2) * 200 + 1 * (j 0).val; omega
    | ⟨1, _⟩ => show win0_0.index t (1 : Fin 2) * 10000 + 1 * k.val = k.val; omega
  · show V c main_arg2 (((cfg0.win 1).blk t).view.emb (ix2 k (j 1))) = V c main_arg2 (ix2 k ((((cfg0.win 2).blk t).view.emb j) 1))
    refine congrArg (V c main_arg2) ?_
    funext a; apply Fin.ext
    match a with
    | ⟨0, _⟩ => show win0_1.index t (0 : Fin 2) * 10000 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_block (t : Fin cfg0.N) (i : S10000x64.Idx) :
    i ∈ ((cfg0.win 2).blk t).view.set ↔ ∀ a : Fin 2, win0_2.index t a * S200x64.size a ≤ (i a).val ∧ (i a).val < win0_2.index t a * S200x64.size a + S200x64.size a := by
  show i ∈ ((View.whole main_v0).slice (win0_2.rect t)).set ↔ _
  rw [View.set_slice_whole, Rect.mem_set_unit]
  exact Iff.rfl

/-- Every index of the output array is in the block of the point its row falls in: row r belongs to point r / 200. -/
theorem covered (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 50 := N_0
  refine ⟨⟨(i 0).val / 200, by rw [hN]; omega⟩, flush0_2 _, ?_⟩
  rw [mem_block]
  obtain ⟨e0, e1, e2, e3, e4, e5⟩ := block_indices ⟨(i 0).val / 200, by rw [hN]; omega⟩
  intro a
  match a with
  | ⟨0, _⟩ =>
    show win0_2.index _ (0 : Fin 2) * 200 ≤ (i 0).val ∧ (i 0).val < win0_2.index _ (0 : Fin 2) * 200 + 200
    rw [e4]; show (i 0).val / 200 * 200 ≤ (i 0).val ∧ (i 0).val < (i 0).val / 200 * 200 + 200; omega
  | ⟨1, _⟩ =>
    show win0_2.index _ (1 : Fin 2) * 64 ≤ (i 1).val ∧ (i 1).val < win0_2.index _ (1 : Fin 2) * 64 + 64
    rw [e5]; omega

/-- The output array after the region is the matrix product of the two operand arrays as the region finds them. -/
theorem final (c : Dev nD) : (dat0 V c).arrAt 2 cfg0.N = mm (V c main_arg0) (V c main_arg2) :=
  (dat0 V c).arrAt_eq_of_cover 2 (mm (V c main_arg0) (V c main_arg2)) (fun t _ => flushed_eq V c t) (covered)

end Cert.KernelIdeal.Product0

end
-- ==== Proof.Product1.lean ====
/-
  The second pipelined product: what its output array holds after the region.

  The grid has 50 points. At point t the body is handed rows 200·t … 200·t + 199 of the left operand (all 64 columns)
  and the whole right operand, multiplies them on the matrix unit into an accumulator of zeros, and its 200 × 64
  result is written back as rows 200·t … 200·t + 199 of the output. An entry of a matrix product depends on one row of
  the left factor and one column of the right factor only, so each written block is that block of the product of the
  WHOLE arrays; the 50 blocks tile the 10000 rows, so the output array ends holding the whole product.
-/
import proofs.«127322_j82918638617247_1_alg».proof.Proof.Gen.KernelIdeal.Frame
import proofs.«127322_j82918638617247_1_alg».proof.Proof.LibMatrixProduct
import Idealize.ShloMosaic.Lib.Pipeline.Value

set_option maxRecDepth 16384

noncomputable section

namespace Cert.KernelIdeal.Product1

open Cert.KernelIdeal Cert.KernelIdeal.Gen Cert.MatrixProduct
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the matrix product of its two loaded blocks: narrowing the operands to bf16 changes
    nothing at the exact extended reals, and the product into zeros is the plain sum of products. -/
theorem payload_eq (x0 : Vec Ideal S200x64 .f32) (x1 : Vec Ideal S64x64 .f32) :
    k1_pay1 (F := Ideal) x0 x1 = mm x0 x1 := by
  unfold k1_pay1
  dsimp only
  rw [shapeCast_self]
  exact matmul_zero_eq_mm _ none _ _

/-- The windows' block indices over the grid: the left operand's and the output's row block is the point itself, every
    column block and the right operand's blocks are block 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the whole arrays as the region finds them. -/
theorem flushed_eq (c : Dev nD) (t : Fin cfg1.N) :
    (dat1 V c).flushed 2 t
      = ((cfg1.win 2).blk t).view.read (Elt Ideal) (mm (V c main_v47) (V c main_arg4)) := by
  show (cfg1.win 2).cut (grid1.coords t) ((dat1 V c).after 2 t) = _
  rw [after1_2]
  unfold out1_2
  rw [View.canon_unit_zero zero_offsets]
  simp only [View.ld_unit_zero (S := S200x64) zero_offsets, View.ld_unit_zero (S := S64x64) zero_offsets]
  rw [payload_eq]
  obtain ⟨e0, e1, e2, e3, e4, e5⟩ := block_indices t
  funext j
  show mm (iblk1 V c 0 t) (iblk1 V c 1 t) j = mm (V c main_v47) (V c main_arg4) (((cfg1.win 2).blk t).view.emb j)
  refine mm_of_row_col (V c main_v47) (V c main_arg4) _ _ j _ (fun k => ?_) (fun k => ?_)
  · show V c main_v47 (((cfg1.win 0).blk t).view.emb (ix2 (j 0) k)) = V c main_v47 (ix2 ((((cfg1.win 2).blk t).view.emb j) 0) k)
    refine congrArg (V c main_v47) ?_
    funext a; apply Fin.ext
    match a with
    | ⟨0, _⟩ => show win1_0.index t (0 : Fin 2) * 200 + 1 * (j 0).val = win1_2.index t (0 : Fin 2) * 200 + 1 * (j 0).val; omega
    | ⟨1, _⟩ => show win1_0.index t (1 : Fin 2) * 64 + 1 * k.val = k.val; omega
  · show V c main_arg4 (((cfg1.win 1).blk t).view.emb (ix2 k (j 1))) = V c main_arg4 (ix2 k ((((cfg1.win 2).blk t).view.emb j) 1))
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega

/-- An index of the output array is in point `t`'s block iff each coordinate is in the block's range on its axis. -/
theorem mem_block (t : Fin cfg1.N) (i : S10000x64.Idx) :
    i ∈ ((cfg1.win 2).blk t).view.set ↔ ∀ a : Fin 2, win1_2.index t a * S200x64.size a ≤ (i a).val ∧ (i a).val < win1_2.index t a * S200x64.size a + S200x64.size a := by
  show i ∈ ((View.whole main_v48).slice (win1_2.rect t)).set ↔ _
  rw [View.set_slice_whole, Rect.mem_set_unit]
  exact Iff.rfl

/-- Every index of the output array is in the block of the point its row falls in: row r belongs to point r / 200. -/
theorem covered (i : S10000x64.Idx) :
    ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 50 := N_1
  refine ⟨⟨(i 0).val / 200, by rw [hN]; omega⟩, flush1_2 _, ?_⟩
  rw [mem_block]
  obtain ⟨e0, e1, e2, e3, e4, e5⟩ := block_indices ⟨(i 0).val / 200, by rw [hN]; omega⟩
  intro a
  match a with
  | ⟨0, _⟩ =>
    show win1_2.index _ (0 : Fin 2) * 200 ≤ (i 0).val ∧ (i 0).val < win1_2.index _ (0 : Fin 2) * 200 + 200
    rw [e4]; show (i 0).val / 200 * 200 ≤ (i 0).val ∧ (i 0).val < (i 0).val / 200 * 200 + 200; omega
  | ⟨1, _⟩ =>
    show win1_2.index _ (1 : Fin 2) * 64 ≤ (i 1).val ∧ (i 1).val < win1_2.index _ (1 : Fin 2) * 64 + 64
    rw [e5]; omega

/-- The output array after the region is the matrix product of the two operand arrays as the region finds them. -/
theorem final (c : Dev nD) : (dat1 V c).arrAt 2 cfg1.N = mm (V c main_v47) (V c main_arg4) :=
  (dat1 V c).arrAt_eq_of_cover 2 (mm (V c main_v47) (V c main_arg4)) (fun t _ => flushed_eq V c t) (covered)

end Cert.KernelIdeal.Product1

end
-- ==== Proof.KernelValue.lean ====
/-
  The idealized kernel's result as one function of its six arguments.

  Walking the boundaries of the kernel's run: after the first region the product buffer holds the matrix product of
  the features and the first weights; the first host stretch turns it into the rectified first aggregation; the
  second region multiplies that by the second weights; the second host stretch aggregates again. The edge list, the
  biases and the second weights are read at later boundaries than the launch, through stretches and regions that do
  not write them, so they are as launched.
-/
import proofs.«127322_j82918638617247_1_alg».proof.Proof.KernelRun
import proofs.«127322_j82918638617247_1_alg».proof.Proof.KernelAggregate
import proofs.«127322_j82918638617247_1_alg».proof.Proof.Product0
import proofs.«127322_j82918638617247_1_alg».proof.Proof.Product1

set_option maxRecDepth 16384

noncomputable section

namespace Cert.KernelIdeal.Result

open Cert.KernelIdeal Cert.KernelIdeal.Gen Cert.KernelIdeal.Aggregate Cert.MatrixProduct
open Idealize.ShloMosaic Idealize.ShloMosaic.TcCoe Idealize.SL.Sem Idealize.ShloMosaic.StableHlo

/-- The two-layer network: aggregate the product of the features by the first weights, rectify, multiply by the
    second weights, aggregate again. -/
def network (x : (⟨S10000x10000, .f32⟩ : BufTy).Contents (Elt Ideal)) (ei : (⟨S2x320000, .i32⟩ : BufTy).Contents (Elt Ideal))
    (w1 : (⟨S10000x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S10000x64, .f32⟩ : BufTy).Contents (Elt Ideal) :=
  conv (mm (m := 10000) (k := 64) (n := 64) (rectified (conv (mm (m := 10000) (k := 10000) (n := 64) x w1) ei b1)) w2) ei b2

variable (m : (ℓ : Loc nD τ sig) → Buf (Elt Ideal) ℓ) (ρ : Dev nD → PrngReg)

/-- The last boundary's contents at the result buffer are the network of the launch contents of the arguments. -/
theorem result_eq (c : Dev nD) :
    W9 m ρ c (Proc.devRef .tc main_v94)
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- a buffer the first region does not write is as launched
  have a1 : ∀ b : Ref sig .tc, (∀ w, Pipeline.arrRef spec0 w ≠ b) →
      W1 m ρ c (Proc.devRef .tc b) = m ((c.tc : Thread nD τ).loc b) := fun b hb => W1_of_ne m ρ c b hb
  -- the first product
  have h0 : W1 m ρ c (Proc.devRef .tc main_v0)
      = mm (m := 10000) (k := 10000) (n := 64) (m ((c.tc : Thread nD τ).loc main_arg0)) (m ((c.tc : Thread nD τ).loc main_arg2)) :=
    (W1_arr m ρ c 2).trans (Product0.final (V0 m ρ) c)
  -- the first stretch
  have h47 : W5 m ρ c (Proc.devRef .tc main_v47)
      = rectified (conv (mm (m := 10000) (k := 10000) (n := 64) (m ((c.tc : Thread nD τ).loc main_arg0)) (m ((c.tc : Thread nD τ).loc main_arg2)))
          (m ((c.tc : Thread nD τ).loc main_arg1)) (m ((c.tc : Thread nD τ).loc main_arg3))) := by
    have h := layer1 (F := Ideal) (W1 m ρ c)
    rw [h0, a1 main_arg1 (by decide), a1 main_arg3 (by decide)] at h
    exact h
  have k1 : W5 m ρ c (Proc.devRef .tc main_arg1) = m ((c.tc : Thread nD τ).loc main_arg1) :=
    (layer1_keeps_arg1 (F := Ideal) (W1 m ρ c)).trans (a1 main_arg1 (by decide))
  have k4 : W5 m ρ c (Proc.devRef .tc main_arg4) = m ((c.tc : Thread nD τ).loc main_arg4) :=
    (layer1_keeps_arg4 (F := Ideal) (W1 m ρ c)).trans (a1 main_arg4 (by decide))
  have k5 : W5 m ρ c (Proc.devRef .tc main_arg5) = m ((c.tc : Thread nD τ).loc main_arg5) :=
    (layer1_keeps_arg5 (F := Ideal) (W1 m ρ c)).trans (a1 main_arg5 (by decide))
  -- the second product
  have h48 : W6 m ρ c (Proc.devRef .tc main_v48)
      = mm (m := 10000) (k := 64) (n := 64) (W5 m ρ c (Proc.devRef .tc main_v47)) (W5 m ρ c (Proc.devRef .tc main_arg4)) :=
    (W6_arr m ρ c 2).trans (Product1.final (V5 m ρ) c)
  -- a buffer the second region does not write is as the region found it
  have a6 : ∀ b : Ref sig .tc, (∀ w, Pipeline.arrRef spec1 w ≠ b) →
      W6 m ρ c (Proc.devRef .tc b) = W5 m ρ c (Proc.devRef .tc b) := fun b hb => W6_of_ne m ρ c b hb
  -- the second stretch
  have h := layer2 (F := Ideal) (W6 m ρ c)
  rw [h48, h47, k4, a6 main_arg1 (by decide), a6 main_arg5 (by decide), k1, k5] at h
  exact h

/-- Every weakly fair execution of the idealized kernel terminates, nothing faulting, with the result buffer at the
    network of the arguments and every argument array as launched. -/
theorem run : θ_run defs (onTc (τ := τ) (main (F := Ideal))) ⟨m, fun _ => 0, ρ⟩ (fun r => ∀ c : Dev nD,
      r.2.mem ((c.tc : Thread nD τ).loc main_v94)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (Cert.KernelIdeal.Run.run_result m ρ)

end Cert.KernelIdeal.Result

end
-- ==== Proof.ReferenceRun.lean ====
/-
  The reference program's run, as a fold of its host operations.

  The reference is a straight line of 123 host operations: a matrix product, the 62 operations of a graph
  convolution's aggregation followed by a rectifier, a second matrix product, and the 59 operations of a second
  aggregation. Every weakly fair execution terminates with each buffer at the fold of the operations' results over the
  launch contents; a buffer no operation writes therefore ends as it was launched.
-/
import proofs.«127322_j82918638617247_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 123 operations, in order (a called function's operations stand in its call's place, spelt `TRef.…`). -/
abbrev ops : List (HloOp τ sig (Elt F)) :=
  [ binary main_arg0 main_arg2 main_v0 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    nullary main_v5 (iotaInDim S10000 32 0),
    binary main_v2 main_v5 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v4 main_v5 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v7 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v6 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v6 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v6 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v7 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v7 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v6 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v6 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v6 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v0 main_v36 main_v37 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x64 ![0, 1] bcast_S330000x1_S330000x64_0_1 : (⟨S330000x1, .f32⟩ : BufTy).Contents (Elt F) → (⟨S330000x64, .f32⟩ : BufTy).Contents (Elt F)),
    binary main_v37 main_v39 main_v40 (mulf : (⟨S330000x64, .f32⟩ : BufTy).Contents (Elt F) → (⟨S330000x64, .f32⟩ : BufTy).Contents (Elt F) → (⟨S330000x64, .f32⟩ : BufTy).Contents (Elt F)),
    nullary main_cst_8 (constant S_ .f32 0x00000000#32),
    unary main_cst_8 main_v41 (broadcastInDim S10000x64 ![] bcast_S_S10000x64 : (⟨S_, .f32⟩ : BufTy).Contents (Elt F) → (⟨S10000x64, .f32⟩ : BufTy).Contents (Elt F)),
    unary main_v7 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S10000x64 ![0, 1] bcast_S1x64_S10000x64_0_1 : (⟨S1x64, .f32⟩ : BufTy).Contents (Elt F) → (⟨S10000x64, .f32⟩ : BufTy).Contents (Elt F)),
    binary main_v43 main_v45 main_v46 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v46) (TRef.of (T := ⟨S10000x64, .f32⟩) main_call1_v0) (TRef.of (T := ⟨S10000x64, .f32⟩) main_v47) maximumf,
    binary main_v47 main_arg4 main_v48 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)),
    unary main_arg1 main_v49 ((extractStridedSlice S1x320000 ![0, 0] · slices_S2x320000_S1x320000_0_0) : (⟨S2x320000, .i32⟩ : BufTy).Contents (Elt F) → (⟨S1x320000, .i32⟩ : BufTy).Contents (Elt F)),
    reshape main_v49 main_v50 rfl shapeCasts_S1x320000_S320000,
    unary main_arg1 main_v51 ((extractStridedSlice S1x320000 ![1, 0] · slices_S2x320000_S1x320000_1_0) : (⟨S2x320000, .i32⟩ : BufTy).Contents (Elt F) → (⟨S1x320000, .i32⟩ : BufTy).Contents (Elt F)),
    reshape main_v51 main_v52 rfl shapeCasts_S1x320000_S320000,
    nullary main_v53 (iotaInDim S10000 32 0),
    binary main_v50 main_v53 main_v54 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v52 main_v53 main_v55 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    nullary main_cst_9 (constant S_ .f32 0x3F800000#32),
    unary main_cst_9 main_v56 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v57 (broadcastInDim S10000 ![] bcast_S_S10000 : (⟨S_, .f32⟩ : BufTy).Contents (Elt F) → (⟨S10000, .f32⟩ : BufTy).Contents (Elt F)),
    unary main_v55 main_v58 (broadcastInDim S330000x1 ![0] bcast_S330000_S330000x1_0 : (⟨S330000, .i32⟩ : BufTy).Contents (Elt F) → (⟨S330000x1, .i32⟩ : BufTy).Contents (Elt F)),
    ternary main_v57 main_v58 main_v56 main_v59 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v60 (broadcastInDim S10000 ![] bcast_S_S10000 : (⟨S_, .f32⟩ : BufTy).Contents (Elt F) → (⟨S10000, .f32⟩ : BufTy).Contents (Elt F)),
    binary main_v59 main_v60 main_v61 (cmpf .ogt : (⟨S10000, .f32⟩ : BufTy).Contents (Elt F) → (⟨S10000, .f32⟩ : BufTy).Contents (Elt F) → (⟨S10000, .i1⟩ : BufTy).Contents (Elt F)),
    unary main_v59 main_v62 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v61) (TRef.of (T := ⟨S10000, .f32⟩) main_v62) (TRef.of (T := ⟨S10000, .f32⟩) main_call2_v1) (TRef.of (T := ⟨S10000, .f32⟩) main_v63) select,
    nullary main_c_13 (constantI S_ 32 0#32),
    unary main_c_13 main_v64 (broadcastInDim S330000 ![] bcast_S_S330000 : (⟨S_, .i32⟩ : BufTy).Contents (Elt F) → (⟨S330000, .i32⟩ : BufTy).Contents (Elt F)),
    binary main_v54 main_v64 main_v65 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v66 (broadcastInDim S330000 ![] bcast_S_S330000 : (⟨S_, .i32⟩ : BufTy).Contents (Elt F) → (⟨S330000, .i32⟩ : BufTy).Contents (Elt F)),
    binary main_v54 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v54 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v63 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v71 (broadcastInDim S330000 ![] bcast_S_S330000 : (⟨S_, .i32⟩ : BufTy).Contents (Elt F) → (⟨S330000, .i32⟩ : BufTy).Contents (Elt F)),
    binary main_v55 main_v71 main_v72 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v73 (broadcastInDim S330000 ![] bcast_S_S330000 : (⟨S_, .i32⟩ : BufTy).Contents (Elt F) → (⟨S330000, .i32⟩ : BufTy).Contents (Elt F)),
    binary main_v55 main_v73 main_v74 (addi : (⟨S330000, .i32⟩ : BufTy).Contents (Elt F) → (⟨S330000, .i32⟩ : BufTy).Contents (Elt F) → (⟨S330000, .i32⟩ : BufTy).Contents (Elt F)),
    ternary main_v72 main_v74 main_v55 main_v75 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v75 main_v76 (broadcastInDim S330000x1 ![0] bcast_S330000_S330000x1_0 : (⟨S330000, .i32⟩ : BufTy).Contents (Elt F) → (⟨S330000x1, .i32⟩ : BufTy).Contents (Elt F)),
    binary main_v63 main_v76 main_v77 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v70 main_v77 main_v78 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v79 (broadcastInDim S330000 ![] bcast_S_S330000 : (⟨S_, .i32⟩ : BufTy).Contents (Elt F) → (⟨S330000, .i32⟩ : BufTy).Contents (Elt F)),
    binary main_v54 main_v79 main_v80 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v81 (broadcastInDim S330000 ![] bcast_S_S330000 : (⟨S_, .i32⟩ : BufTy).Contents (Elt F) → (⟨S330000, .i32⟩ : BufTy).Contents (Elt F)),
    binary main_v54 main_v81 main_v82 (addi : (⟨S330000, .i32⟩ : BufTy).Contents (Elt F) → (⟨S330000, .i32⟩ : BufTy).Contents (Elt F) → (⟨S330000, .i32⟩ : BufTy).Contents (Elt F)),
    ternary main_v80 main_v82 main_v54 main_v83 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v83 main_v84 (broadcastInDim S330000x1 ![0] bcast_S330000_S330000x1_0 : (⟨S330000, .i32⟩ : BufTy).Contents (Elt F) → (⟨S330000x1, .i32⟩ : BufTy).Contents (Elt F)),
    binary main_v48 main_v84 main_v85 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v78 main_v86 (broadcastInDim S330000x1 ![0] bcast_S330000_S330000x1_0 : (⟨S330000, .f32⟩ : BufTy).Contents (Elt F) → (⟨S330000x1, .f32⟩ : BufTy).Contents (Elt F)),
    unary main_v86 main_v87 (broadcastInDim S330000x64 ![0, 1] bcast_S330000x1_S330000x64_0_1 : (⟨S330000x1, .f32⟩ : BufTy).Contents (Elt F) → (⟨S330000x64, .f32⟩ : BufTy).Contents (Elt F)),
    binary main_v85 main_v87 main_v88 (mulf : (⟨S330000x64, .f32⟩ : BufTy).Contents (Elt F) → (⟨S330000x64, .f32⟩ : BufTy).Contents (Elt F) → (⟨S330000x64, .f32⟩ : BufTy).Contents (Elt F)),
    nullary main_cst_19 (constant S_ .f32 0x00000000#32),
    unary main_cst_19 main_v89 (broadcastInDim S10000x64 ![] bcast_S_S10000x64 : (⟨S_, .f32⟩ : BufTy).Contents (Elt F) → (⟨S10000x64, .f32⟩ : BufTy).Contents (Elt F)),
    unary main_v55 main_v90 (broadcastInDim S330000x1 ![0] bcast_S330000_S330000x1_0 : (⟨S330000, .i32⟩ : BufTy).Contents (Elt F) → (⟨S330000x1, .i32⟩ : BufTy).Contents (Elt F)),
    ternary main_v89 main_v90 main_v88 main_v91 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S10000x64 ![0, 1] bcast_S1x64_S10000x64_0_1 : (⟨S1x64, .f32⟩ : BufTy).Contents (Elt F) → (⟨S10000x64, .f32⟩ : BufTy).Contents (Elt F)),
    binary main_v91 main_v93 main_v94 (addf : (⟨S10000x64, .f32⟩ : BufTy).Contents (Elt F) → (⟨S10000x64, .f32⟩ : BufTy).Contents (Elt F) → (⟨S10000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Every weakly fair execution of the reference terminates, nothing faulting, with every buffer at the fold of the
    operations' results over what the buffers held at launch. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HostRun

end
-- ==== Proof.ReferenceAggregate.lean ====
/-
  The reference's two graph-convolution stretches, each as one function of the buffers it reads.

  Between and after its two matrix products the reference runs the same host operations as the kernel's program:
  the edge list's source and target node lists (with self loops), the in-degrees and their inverse square roots, the
  edge weights, the product's rows gathered along the edges, scaled, added up at the targets, the bias added; after
  the first aggregation the rectifier. Read back through the fold of those operations, the buffer each stretch ends in
  is `rectified (conv h ei b)`, respectively `conv h ei b`, of the product `h`, the edge list `ei` and the bias `b` as
  the stretch finds them; a single product operation leaves its buffer at the host's `dot_general` of its operands.
-/
import proofs.«127322_j82918638617247_1_alg».proof.Proof.ReferenceRun

set_option maxRecDepth 16384

noncomputable section

namespace Cert.ReferenceIdeal.Aggregate

open Cert.ReferenceIdeal Cert.ReferenceIdeal.Gen Cert.ReferenceIdeal.HostRun
open Idealize.ShloMosaic Idealize.ShloMosaic.TcCoe Idealize.SL.Sem Idealize.ShloMosaic.StableHlo

variable {F : FTy → Type} [FloatOps F]

/-- The edges' sources as a flat list of 320000 node numbers, followed by the 10000 self loops 0, 1, …, 9999. -/
def sources (ei : (⟨S2x320000, .i32⟩ : BufTy).Contents (Elt F)) : (⟨S330000, .i32⟩ : BufTy).Contents (Elt F) :=
  concatenate S330000 0
    [⟨S320000, shapeCast S320000 (extractStridedSlice S1x320000 ![0, 0] ei slices_S2x320000_S1x320000_0_0) shapeCasts_S1x320000_S320000⟩,
     ⟨S10000, iotaInDim S10000 32 0⟩] concatenates_S320000_S10000_S330000_d0

/-- The edges' targets, followed by the same self loops. -/
def targets (ei : (⟨S2x320000, .i32⟩ : BufTy).Contents (Elt F)) : (⟨S330000, .i32⟩ : BufTy).Contents (Elt F) :=
  concatenate S330000 0
    [⟨S320000, shapeCast S320000 (extractStridedSlice S1x320000 ![1, 0] ei slices_S2x320000_S1x320000_1_0) shapeCasts_S1x320000_S320000⟩,
     ⟨S10000, iotaInDim S10000 32 0⟩] concatenates_S320000_S10000_S330000_d0

/-- A node number as the host's indexing reads it: a negative one counts back from the 10000 nodes. -/
def wrapped (ix : (⟨S330000, .i32⟩ : BufTy).Contents (Elt F)) : (⟨S330000, .i32⟩ : BufTy).Contents (Elt F) :=
  select (cmpi .slt ix (broadcastInDim S330000 ![] bcast_S_S330000 (constantI S_ 32 0#32)))
    (addi ix (broadcastInDim S330000 ![] bcast_S_S330000 (constantI S_ 32 10000#32))) ix

/-- Every node's in-degree, self loop included: a one added at each edge's target. -/
def degree (dst : (⟨S330000, .i32⟩ : BufTy).Contents (Elt F)) : (⟨S10000, .f32⟩ : BufTy).Contents (Elt F) :=
  Host.scatterAdd scatter_S10000_S330000x1_S330000_n_0_0_1
    (broadcastInDim S10000 ![] bcast_S_S10000 (constant (F := F) S_ .f32 0x00000000#32))
    (broadcastInDim S330000x1 ![0] bcast_S330000_S330000x1_0 dst)
    (broadcastInDim S330000 ![] bcast_S_S330000 (constant (F := F) S_ .f32 0x3F800000#32))

/-- deg^(-1/2) where the degree is positive, 0 elsewhere. -/
def invSqrtDegree (dst : (⟨S330000, .i32⟩ : BufTy).Contents (Elt F)) : (⟨S10000, .f32⟩ : BufTy).Contents (Elt F) :=
  select (cmpf .ogt (degree dst) (broadcastInDim S10000 ![] bcast_S_S10000 (constant (F := F) S_ .f32 0x00000000#32)))
    (Host.rsqrt (degree dst))
    (broadcastInDim S10000 ![] bcast_S_S10000 (id (constant (F := F) S_ .f32 0x00000000#32)))

/-- An edge's weight: deg^(-1/2) of its source times deg^(-1/2) of its target. -/
def edgeWeight (src dst : (⟨S330000, .i32⟩ : BufTy).Contents (Elt F)) : (⟨S330000, .f32⟩ : BufTy).Contents (Elt F) :=
  mulf
    (Host.gather gather_S10000_S330000x1_S330000_n_0_n_n_0_1_1 (invSqrtDegree dst)
      (broadcastInDim S330000x1 ![0] bcast_S330000_S330000x1_0 (wrapped src)))
    (Host.gather gather_S10000_S330000x1_S330000_n_0_n_n_0_1_1 (invSqrtDegree dst)
      (broadcastInDim S330000x1 ![0] bcast_S330000_S330000x1_0 (wrapped dst)))

/-- The aggregation: every edge carries its source's row of `h`, scaled by the edge's weight, to its target, where
    the rows are added up; then the bias row is added to every node's row. -/
def aggregate (h : (⟨S10000x64, .f32⟩ : BufTy).Contents (Elt F)) (src dst : (⟨S330000, .i32⟩ : BufTy).Contents (Elt F))
    (b : (⟨S64, .f32⟩ : BufTy).Contents (Elt F)) : (⟨S10000x64, .f32⟩ : BufTy).Contents (Elt F) :=
  addf
    (Host.scatterAdd scatter_S10000x64_S330000x1_S330000x64_1_0_0_1
      (broadcastInDim S10000x64 ![] bcast_S_S10000x64 (constant (F := F) S_ .f32 0x00000000#32))
      (broadcastInDim S330000x1 ![0] bcast_S330000_S330000x1_0 dst)
      (mulf
        (Host.gather gather_S10000x64_S330000x1_S330000x64_1_0_n_n_0_1_164 h
          (broadcastInDim S330000x1 ![0] bcast_S330000_S330000x1_0 (wrapped src)))
        (broadcastInDim S330000x64 ![0, 1] bcast_S330000x1_S330000x64_0_1
          (broadcastInDim S330000x1 ![0] bcast_S330000_S330000x1_0 (edgeWeight src dst)))))
    (broadcastInDim S10000x64 ![0, 1] bcast_S1x64_S10000x64_0_1 (broadcastInDim S1x64 ![1] bcast_S64_S1x64_1 b))

/-- One graph convolution's aggregation of the node features `h` over the edge list `ei`, with bias `b`. -/
def conv (h : (⟨S10000x64, .f32⟩ : BufTy).Contents (Elt F)) (ei : (⟨S2x320000, .i32⟩ : BufTy).Contents (Elt F))
    (b : (⟨S64, .f32⟩ : BufTy).Contents (Elt F)) : (⟨S10000x64, .f32⟩ : BufTy).Contents (Elt F) :=
  aggregate h (sources ei) (targets ei) b

/-- The rectifier: the larger of an entry and zero. -/
def rectified (x : (⟨S10000x64, .f32⟩ : BufTy).Contents (Elt F)) : (⟨S10000x64, .f32⟩ : BufTy).Contents (Elt F) :=
  maximumf x (broadcastInDim S10000x64 ![] bcast_S_S10000x64 (constant (F := F) S_ .f32 0x00000000#32))

/-! ## The program in six pieces -/

/-- The first matrix product. -/
abbrev productOp1 : List (HloOp τ sig (Elt F)) :=
  [ binary main_arg0 main_arg2 main_v0 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)) ]
/-- The first stretch's operations that build the two node lists. -/
abbrev indexOps1 : List (HloOp τ sig (Elt F)) :=
  [ unary main_arg1 main_v1 ((extractStridedSlice S1x320000 ![0, 0] · slices_S2x320000_S1x320000_0_0) : (⟨S2x320000, .i32⟩ : BufTy).Contents (Elt F) → (⟨S1x320000, .i32⟩ : BufTy).Contents (Elt F)),
    reshape main_v1 main_v2 rfl shapeCasts_S1x320000_S320000,
    unary main_arg1 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    nullary main_v5 (iotaInDim S10000 32 0),
    binary main_v2 main_v5 main_v6 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v4 main_v5 main_v7 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- The rest of the first stretch, the rectifier included. -/
abbrev aggregateOps1 : List (HloOp τ sig (Elt F)) :=
  [ nullary main_cst (constant S_ .f32 0x3F800000#32),
    unary main_cst main_v8 (broadcastInDim S330000 ![] bcast_S_S330000 : (⟨S_, .f32⟩ : BufTy).Contents (Elt F) → (⟨S330000, .f32⟩ : BufTy).Contents (Elt F)),
    nullary main_cst_0 (constant S_ .f32 0x00000000#32),
    unary main_cst_0 main_v9 (broadcastInDim S10000 ![] bcast_S_S10000 : (⟨S_, .f32⟩ : BufTy).Contents (Elt F) → (⟨S10000, .f32⟩ : BufTy).Contents (Elt F)),
    unary main_v7 main_v10 (broadcastInDim S330000x1 ![0] bcast_S330000_S330000x1_0 : (⟨S330000, .i32⟩ : BufTy).Contents (Elt F) → (⟨S330000x1, .i32⟩ : BufTy).Contents (Elt F)),
    ternary main_v9 main_v10 main_v8 main_v11 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_1 (constant S_ .f32 0x00000000#32),
    unary main_cst_1 main_v12 (broadcastInDim S10000 ![] bcast_S_S10000 : (⟨S_, .f32⟩ : BufTy).Contents (Elt F) → (⟨S10000, .f32⟩ : BufTy).Contents (Elt F)),
    binary main_v11 main_v12 main_v13 (cmpf .ogt : (⟨S10000, .f32⟩ : BufTy).Contents (Elt F) → (⟨S10000, .f32⟩ : BufTy).Contents (Elt F) → (⟨S10000, .i1⟩ : BufTy).Contents (Elt F)),
    unary main_v11 main_v14 (Host.rsqrt : (⟨S10000, .f32⟩ : BufTy).Contents (Elt F) → (⟨S10000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S10000, .f32⟩) main_call0_v1) (broadcastInDim S10000 ![] bcast_S_S10000),
    TRef.ternary (TRef.of (T := ⟨S10000, .i1⟩) main_v13) (TRef.of (T := ⟨S10000, .f32⟩) main_v14) (TRef.of (T := ⟨S10000, .f32⟩) main_call0_v1) (TRef.of (T := ⟨S10000, .f32⟩) main_v15) select,
    nullary main_c (constantI S_ 32 0#32),
    unary main_c main_v16 (broadcastInDim S330000 ![] bcast_S_S330000 : (⟨S_, .i32⟩ : BufTy).Contents (Elt F) → (⟨S330000, .i32⟩ : BufTy).Contents (Elt F)),
    binary main_v6 main_v16 main_v17 (cmpi .slt : (⟨S330000, .i32⟩ : BufTy).Contents (Elt F) → (⟨S330000, .i32⟩ : BufTy).Contents (Elt F) → (⟨S330000, .i1⟩ : BufTy).Contents (Elt F)),
    nullary main_c_3 (constantI S_ 32 10000#32),
    unary main_c_3 main_v18 (broadcastInDim S330000 ![] bcast_S_S330000 : (⟨S_, .i32⟩ : BufTy).Contents (Elt F) → (⟨S330000, .i32⟩ : BufTy).Contents (Elt F)),
    binary main_v6 main_v18 main_v19 (addi : (⟨S330000, .i32⟩ : BufTy).Contents (Elt F) → (⟨S330000, .i32⟩ : BufTy).Contents (Elt F) → (⟨S330000, .i32⟩ : BufTy).Contents (Elt F)),
    ternary main_v17 main_v19 main_v6 main_v20 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v20 main_v21 (broadcastInDim S330000x1 ![0] bcast_S330000_S330000x1_0 : (⟨S330000, .i32⟩ : BufTy).Contents (Elt F) → (⟨S330000x1, .i32⟩ : BufTy).Contents (Elt F)),
    binary main_v15 main_v21 main_v22 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_4 (constantI S_ 32 0#32),
    unary main_c_4 main_v23 (broadcastInDim S330000 ![] bcast_S_S330000 : (⟨S_, .i32⟩ : BufTy).Contents (Elt F) → (⟨S330000, .i32⟩ : BufTy).Contents (Elt F)),
    binary main_v7 main_v23 main_v24 (cmpi .slt : (⟨S330000, .i32⟩ : BufTy).Contents (Elt F) → (⟨S330000, .i32⟩ : BufTy).Contents (Elt F) → (⟨S330000, .i1⟩ : BufTy).Contents (Elt F)),
    nullary main_c_5 (constantI S_ 32 10000#32),
    unary main_c_5 main_v25 (broadcastInDim S330000 ![] bcast_S_S330000 : (⟨S_, .i32⟩ : BufTy).Contents (Elt F) → (⟨S330000, .i32⟩ : BufTy).Contents (Elt F)),
    binary main_v7 main_v25 main_v26 (addi : (⟨S330000, .i32⟩ : BufTy).Contents (Elt F) → (⟨S330000, .i32⟩ : BufTy).Contents (Elt F) → (⟨S330000, .i32⟩ : BufTy).Contents (Elt F)),
    ternary main_v24 main_v26 main_v7 main_v27 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v27 main_v28 (broadcastInDim S330000x1 ![0] bcast_S330000_S330000x1_0 : (⟨S330000, .i32⟩ : BufTy).Contents (Elt F) → (⟨S330000x1, .i32⟩ : BufTy).Contents (Elt F)),
    binary main_v15 main_v28 main_v29 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v22 main_v29 main_v30 (mulf : (⟨S330000, .f32⟩ : BufTy).Contents (Elt F) → (⟨S330000, .f32⟩ : BufTy).Contents (Elt F) → (⟨S330000, .f32⟩ : BufTy).Contents (Elt F)),
    nullary main_c_6 (constantI S_ 32 0#32),
    unary main_c_6 main_v31 (broadcastInDim S330000 ![] bcast_S_S330000 : (⟨S_, .i32⟩ : BufTy).Contents (Elt F) → (⟨S330000, .i32⟩ : BufTy).Contents (Elt F)),
    binary main_v6 main_v31 main_v32 (cmpi .slt : (⟨S330000, .i32⟩ : BufTy).Contents (Elt F) → (⟨S330000, .i32⟩ : BufTy).Contents (Elt F) → (⟨S330000, .i1⟩ : BufTy).Contents (Elt F)),
    nullary main_c_7 (constantI S_ 32 10000#32),
    unary main_c_7 main_v33 (broadcastInDim S330000 ![] bcast_S_S330000 : (⟨S_, .i32⟩ : BufTy).Contents (Elt F) → (⟨S330000, .i32⟩ : BufTy).Contents (Elt F)),
    binary main_v6 main_v33 main_v34 (addi : (⟨S330000, .i32⟩ : BufTy).Contents (Elt F) → (⟨S330000, .i32⟩ : BufTy).Contents (Elt F) → (⟨S330000, .i32⟩ : BufTy).Contents (Elt F)),
    ternary main_v32 main_v34 main_v6 main_v35 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v35 main_v36 (broadcastInDim S330000x1 ![0] bcast_S330000_S330000x1_0 : (⟨S330000, .i32⟩ : BufTy).Contents (Elt F) → (⟨S330000x1, .i32⟩ : BufTy).Contents (Elt F)),
    binary main_v0 main_v36 main_v37 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v30 main_v38 (broadcastInDim S330000x1 ![0] bcast_S330000_S330000x1_0 : (⟨S330000, .f32⟩ : BufTy).Contents (Elt F) → (⟨S330000x1, .f32⟩ : BufTy).Contents (Elt F)),
    unary main_v38 main_v39 (broadcastInDim S330000x64 ![0, 1] bcast_S330000x1_S330000x64_0_1 : (⟨S330000x1, .f32⟩ : BufTy).Contents (Elt F) → (⟨S330000x64, .f32⟩ : BufTy).Contents (Elt F)),
    binary main_v37 main_v39 main_v40 (mulf : (⟨S330000x64, .f32⟩ : BufTy).Contents (Elt F) → (⟨S330000x64, .f32⟩ : BufTy).Contents (Elt F) → (⟨S330000x64, .f32⟩ : BufTy).Contents (Elt F)),
    nullary main_cst_8 (constant S_ .f32 0x00000000#32),
    unary main_cst_8 main_v41 (broadcastInDim S10000x64 ![] bcast_S_S10000x64 : (⟨S_, .f32⟩ : BufTy).Contents (Elt F) → (⟨S10000x64, .f32⟩ : BufTy).Contents (Elt F)),
    unary main_v7 main_v42 (broadcastInDim S330000x1 ![0] bcast_S330000_S330000x1_0 : (⟨S330000, .i32⟩ : BufTy).Contents (Elt F) → (⟨S330000x1, .i32⟩ : BufTy).Contents (Elt F)),
    ternary main_v41 main_v42 main_v40 main_v43 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S10000x64 ![0, 1] bcast_S1x64_S10000x64_0_1 : (⟨S1x64, .f32⟩ : BufTy).Contents (Elt F) → (⟨S10000x64, .f32⟩ : BufTy).Contents (Elt F)),
    binary main_v43 main_v45 main_v46 (addf : (⟨S10000x64, .f32⟩ : BufTy).Contents (Elt F) → (⟨S10000x64, .f32⟩ : BufTy).Contents (Elt F) → (⟨S10000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x64, .f32⟩) main_call1_v0) (broadcastInDim S10000x64 ![] bcast_S_S10000x64),
    TRef.binary (TRef.of (T := ⟨S10000x64, .f32⟩) main_v46) (TRef.of (T := ⟨S10000x64, .f32⟩) main_call1_v0) (TRef.of (T := ⟨S10000x64, .f32⟩) main_v47) maximumf ]
/-- The second matrix product. -/
abbrev productOp2 : List (HloOp τ sig (Elt F)) :=
  [ binary main_v47 main_arg4 main_v48 ((fun l r => Host.dotGeneral dot_S10000x64_S64x64_S10000x64_1_0_0_1_n_n none l r) : (⟨S10000x64, .f32⟩ : BufTy).Contents (Elt F) → (⟨S64x64, .f32⟩ : BufTy).Contents (Elt F) → (⟨S10000x64, .f32⟩ : BufTy).Contents (Elt F)) ]
/-- The second stretch's operations that build the two node lists. -/
abbrev indexOps2 : List (HloOp τ sig (Elt F)) :=
  [ unary main_arg1 main_v49 ((extractStridedSlice S1x320000 ![0, 0] · slices_S2x320000_S1x320000_0_0) : (⟨S2x320000, .i32⟩ : BufTy).Contents (Elt F) → (⟨S1x320000, .i32⟩ : BufTy).Contents (Elt F)),
    reshape main_v49 main_v50 rfl shapeCasts_S1x320000_S320000,
    unary main_arg1 main_v51 ((extractStridedSlice S1x320000 ![1, 0] · slices_S2x320000_S1x320000_1_0) : (⟨S2x320000, .i32⟩ : BufTy).Contents (Elt F) → (⟨S1x320000, .i32⟩ : BufTy).Contents (Elt F)),
    reshape main_v51 main_v52 rfl shapeCasts_S1x320000_S320000,
    nullary main_v53 (iotaInDim S10000 32 0),
    binary main_v50 main_v53 main_v54 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)),
    binary main_v52 main_v53 main_v55 ((fun a b => concatenate S330000 0 [⟨S320000, a⟩, ⟨S10000, b⟩] concatenates_S320000_S10000_S330000_d0) : (⟨S320000, .i32⟩ : BufTy).Contents (Elt F) → (⟨S10000, .i32⟩ : BufTy).Contents (Elt F) → (⟨S330000, .i32⟩ : BufTy).Contents (Elt F)) ]
/-- The rest of the second stretch. -/
abbrev aggregateOps2 : List (HloOp τ sig (Elt F)) :=
  [ nullary main_cst_9 (constant S_ .f32 0x3F800000#32),
    unary main_cst_9 main_v56 (broadcastInDim S330000 ![] bcast_S_S330000 : (⟨S_, .f32⟩ : BufTy).Contents (Elt F) → (⟨S330000, .f32⟩ : BufTy).Contents (Elt F)),
    nullary main_cst_10 (constant S_ .f32 0x00000000#32),
    unary main_cst_10 main_v57 (broadcastInDim S10000 ![] bcast_S_S10000 : (⟨S_, .f32⟩ : BufTy).Contents (Elt F) → (⟨S10000, .f32⟩ : BufTy).Contents (Elt F)),
    unary main_v55 main_v58 (broadcastInDim S330000x1 ![0] bcast_S330000_S330000x1_0 : (⟨S330000, .i32⟩ : BufTy).Contents (Elt F) → (⟨S330000x1, .i32⟩ : BufTy).Contents (Elt F)),
    ternary main_v57 main_v58 main_v56 main_v59 ((fun x i u => Host.scatterAdd scatter_S10000_S330000x1_S330000_n_0_0_1 x i u) : (⟨S10000, .f32⟩ : BufTy).Contents (Elt F) → (⟨S330000x1, .i32⟩ : BufTy).Contents (Elt F) → (⟨S330000, .f32⟩ : BufTy).Contents (Elt F) → (⟨S10000, .f32⟩ : BufTy).Contents (Elt F)),
    nullary main_cst_11 (constant S_ .f32 0x00000000#32),
    unary main_cst_11 main_v60 (broadcastInDim S10000 ![] bcast_S_S10000 : (⟨S_, .f32⟩ : BufTy).Contents (Elt F) → (⟨S10000, .f32⟩ : BufTy).Contents (Elt F)),
    binary main_v59 main_v60 main_v61 (cmpf .ogt : (⟨S10000, .f32⟩ : BufTy).Contents (Elt F) → (⟨S10000, .f32⟩ : BufTy).Contents (Elt F) → (⟨S10000, .i1⟩ : BufTy).Contents (Elt F)),
    unary main_v59 main_v62 (Host.rsqrt : (⟨S10000, .f32⟩ : BufTy).Contents (Elt F) → (⟨S10000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S10000, .f32⟩) main_call2_v1) (broadcastInDim S10000 ![] bcast_S_S10000),
    TRef.ternary (TRef.of (T := ⟨S10000, .i1⟩) main_v61) (TRef.of (T := ⟨S10000, .f32⟩) main_v62) (TRef.of (T := ⟨S10000, .f32⟩) main_call2_v1) (TRef.of (T := ⟨S10000, .f32⟩) main_v63) select,
    nullary main_c_13 (constantI S_ 32 0#32),
    unary main_c_13 main_v64 (broadcastInDim S330000 ![] bcast_S_S330000 : (⟨S_, .i32⟩ : BufTy).Contents (Elt F) → (⟨S330000, .i32⟩ : BufTy).Contents (Elt F)),
    binary main_v54 main_v64 main_v65 (cmpi .slt : (⟨S330000, .i32⟩ : BufTy).Contents (Elt F) → (⟨S330000, .i32⟩ : BufTy).Contents (Elt F) → (⟨S330000, .i1⟩ : BufTy).Contents (Elt F)),
    nullary main_c_14 (constantI S_ 32 10000#32),
    unary main_c_14 main_v66 (broadcastInDim S330000 ![] bcast_S_S330000 : (⟨S_, .i32⟩ : BufTy).Contents (Elt F) → (⟨S330000, .i32⟩ : BufTy).Contents (Elt F)),
    binary main_v54 main_v66 main_v67 (addi : (⟨S330000, .i32⟩ : BufTy).Contents (Elt F) → (⟨S330000, .i32⟩ : BufTy).Contents (Elt F) → (⟨S330000, .i32⟩ : BufTy).Contents (Elt F)),
    ternary main_v65 main_v67 main_v54 main_v68 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v68 main_v69 (broadcastInDim S330000x1 ![0] bcast_S330000_S330000x1_0 : (⟨S330000, .i32⟩ : BufTy).Contents (Elt F) → (⟨S330000x1, .i32⟩ : BufTy).Contents (Elt F)),
    binary main_v63 main_v69 main_v70 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    nullary main_c_15 (constantI S_ 32 0#32),
    unary main_c_15 main_v71 (broadcastInDim S330000 ![] bcast_S_S330000 : (⟨S_, .i32⟩ : BufTy).Contents (Elt F) → (⟨S330000, .i32⟩ : BufTy).Contents (Elt F)),
    binary main_v55 main_v71 main_v72 (cmpi .slt : (⟨S330000, .i32⟩ : BufTy).Contents (Elt F) → (⟨S330000, .i32⟩ : BufTy).Contents (Elt F) → (⟨S330000, .i1⟩ : BufTy).Contents (Elt F)),
    nullary main_c_16 (constantI S_ 32 10000#32),
    unary main_c_16 main_v73 (broadcastInDim S330000 ![] bcast_S_S330000 : (⟨S_, .i32⟩ : BufTy).Contents (Elt F) → (⟨S330000, .i32⟩ : BufTy).Contents (Elt F)),
    binary main_v55 main_v73 main_v74 (addi : (⟨S330000, .i32⟩ : BufTy).Contents (Elt F) → (⟨S330000, .i32⟩ : BufTy).Contents (Elt F) → (⟨S330000, .i32⟩ : BufTy).Contents (Elt F)),
    ternary main_v72 main_v74 main_v55 main_v75 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v75 main_v76 (broadcastInDim S330000x1 ![0] bcast_S330000_S330000x1_0 : (⟨S330000, .i32⟩ : BufTy).Contents (Elt F) → (⟨S330000x1, .i32⟩ : BufTy).Contents (Elt F)),
    binary main_v63 main_v76 main_v77 ((fun x i => Host.gather gather_S10000_S330000x1_S330000_n_0_n_n_0_1_1 x i) : (⟨S10000, .f32⟩ : BufTy).Contents (Elt F) → (⟨S330000x1, .i32⟩ : BufTy).Contents (Elt F) → (⟨S330000, .f32⟩ : BufTy).Contents (Elt F)),
    binary main_v70 main_v77 main_v78 (mulf : (⟨S330000, .f32⟩ : BufTy).Contents (Elt F) → (⟨S330000, .f32⟩ : BufTy).Contents (Elt F) → (⟨S330000, .f32⟩ : BufTy).Contents (Elt F)),
    nullary main_c_17 (constantI S_ 32 0#32),
    unary main_c_17 main_v79 (broadcastInDim S330000 ![] bcast_S_S330000 : (⟨S_, .i32⟩ : BufTy).Contents (Elt F) → (⟨S330000, .i32⟩ : BufTy).Contents (Elt F)),
    binary main_v54 main_v79 main_v80 (cmpi .slt : (⟨S330000, .i32⟩ : BufTy).Contents (Elt F) → (⟨S330000, .i32⟩ : BufTy).Contents (Elt F) → (⟨S330000, .i1⟩ : BufTy).Contents (Elt F)),
    nullary main_c_18 (constantI S_ 32 10000#32),
    unary main_c_18 main_v81 (broadcastInDim S330000 ![] bcast_S_S330000 : (⟨S_, .i32⟩ : BufTy).Contents (Elt F) → (⟨S330000, .i32⟩ : BufTy).Contents (Elt F)),
    binary main_v54 main_v81 main_v82 (addi : (⟨S330000, .i32⟩ : BufTy).Contents (Elt F) → (⟨S330000, .i32⟩ : BufTy).Contents (Elt F) → (⟨S330000, .i32⟩ : BufTy).Contents (Elt F)),
    ternary main_v80 main_v82 main_v54 main_v83 (select : (⟨S330000, .i1⟩ : BufTy).Contents (Elt F) → (⟨S330000, .i32⟩ : BufTy).Contents (Elt F) → (⟨S330000, .i32⟩ : BufTy).Contents (Elt F) → (⟨S330000, .i32⟩ : BufTy).Contents (Elt F)),
    unary main_v83 main_v84 (broadcastInDim S330000x1 ![0] bcast_S330000_S330000x1_0 : (⟨S330000, .i32⟩ : BufTy).Contents (Elt F) → (⟨S330000x1, .i32⟩ : BufTy).Contents (Elt F)),
    binary main_v48 main_v84 main_v85 ((fun x i => Host.gather gather_S10000x64_S330000x1_S330000x64_1_0_n_n_0_1_164 x i) : (⟨S10000x64, .f32⟩ : BufTy).Contents (Elt F) → (⟨S330000x1, .i32⟩ : BufTy).Contents (Elt F) → (⟨S330000x64, .f32⟩ : BufTy).Contents (Elt F)),
    unary main_v78 main_v86 (broadcastInDim S330000x1 ![0] bcast_S330000_S330000x1_0 : (⟨S330000, .f32⟩ : BufTy).Contents (Elt F) → (⟨S330000x1, .f32⟩ : BufTy).Contents (Elt F)),
    unary main_v86 main_v87 (broadcastInDim S330000x64 ![0, 1] bcast_S330000x1_S330000x64_0_1 : (⟨S330000x1, .f32⟩ : BufTy).Contents (Elt F) → (⟨S330000x64, .f32⟩ : BufTy).Contents (Elt F)),
    binary main_v85 main_v87 main_v88 (mulf : (⟨S330000x64, .f32⟩ : BufTy).Contents (Elt F) → (⟨S330000x64, .f32⟩ : BufTy).Contents (Elt F) → (⟨S330000x64, .f32⟩ : BufTy).Contents (Elt F)),
    nullary main_cst_19 (constant S_ .f32 0x00000000#32),
    unary main_cst_19 main_v89 (broadcastInDim S10000x64 ![] bcast_S_S10000x64 : (⟨S_, .f32⟩ : BufTy).Contents (Elt F) → (⟨S10000x64, .f32⟩ : BufTy).Contents (Elt F)),
    unary main_v55 main_v90 (broadcastInDim S330000x1 ![0] bcast_S330000_S330000x1_0 : (⟨S330000, .i32⟩ : BufTy).Contents (Elt F) → (⟨S330000x1, .i32⟩ : BufTy).Contents (Elt F)),
    ternary main_v89 main_v90 main_v88 main_v91 ((fun x i u => Host.scatterAdd scatter_S10000x64_S330000x1_S330000x64_1_0_0_1 x i u) : (⟨S10000x64, .f32⟩ : BufTy).Contents (Elt F) → (⟨S330000x1, .i32⟩ : BufTy).Contents (Elt F) → (⟨S330000x64, .f32⟩ : BufTy).Contents (Elt F) → (⟨S10000x64, .f32⟩ : BufTy).Contents (Elt F)),
    unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S10000x64 ![0, 1] bcast_S1x64_S10000x64_0_1 : (⟨S1x64, .f32⟩ : BufTy).Contents (Elt F) → (⟨S10000x64, .f32⟩ : BufTy).Contents (Elt F)),
    binary main_v91 main_v93 main_v94 (addf : (⟨S10000x64, .f32⟩ : BufTy).Contents (Elt F) → (⟨S10000x64, .f32⟩ : BufTy).Contents (Elt F) → (⟨S10000x64, .f32⟩ : BufTy).Contents (Elt F)) ]

/-- The fold over a list of operations joined from two is the second's fold over the first's. -/
theorem after_pieces : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_pieces l₁ l₂]

/-- The program's operations are the six pieces in order. -/
theorem ops_pieces : (ops (F := F)) = productOp1 ++ (indexOps1 ++ (aggregateOps1 ++ (productOp2 ++ (indexOps2 ++ aggregateOps2)))) := rfl

/-! ## Each piece read back -/

/-- What the buffer of the rectified first aggregation holds after the first stretch, from any contents `W`. -/
theorem layer1 (W : Valuation τ sig (Elt F)) :
    after (aggregateOps1 (F := F)) (after (indexOps1 (F := F)) W) (Proc.devRef .tc main_v47)
      = rectified (conv (W (Proc.devRef .tc main_v0)) (W (Proc.devRef .tc main_arg1)) (W (Proc.devRef .tc main_arg3))) := by
  have h6 : after (indexOps1 (F := F)) W (Proc.devRef .tc main_v6) = sources (W (Proc.devRef .tc main_arg1)) := by
    after_results; rfl
  have h7 : after (indexOps1 (F := F)) W (Proc.devRef .tc main_v7) = targets (W (Proc.devRef .tc main_arg1)) := by
    after_results; rfl
  have h0 : after (indexOps1 (F := F)) W (Proc.devRef .tc main_v0) = W (Proc.devRef .tc main_v0) := by
    after_results
  have h3 : after (indexOps1 (F := F)) W (Proc.devRef .tc main_arg3) = W (Proc.devRef .tc main_arg3) := by
    after_results
  generalize after (indexOps1 (F := F)) W = Wa at h6 h7 h0 h3 ⊢
  after_results_simp
  rw [h6, h7, h0, h3]
  rfl

/-- What the result buffer holds after the second stretch, from any contents `W`. -/
theorem layer2 (W : Valuation τ sig (Elt F)) :
    after (aggregateOps2 (F := F)) (after (indexOps2 (F := F)) W) (Proc.devRef .tc main_v94)
      = conv (W (Proc.devRef .tc main_v48)) (W (Proc.devRef .tc main_arg1)) (W (Proc.devRef .tc main_arg5)) := by
  have h6 : after (indexOps2 (F := F)) W (Proc.devRef .tc main_v54) = sources (W (Proc.devRef .tc main_arg1)) := by
    after_results; rfl
  have h7 : after (indexOps2 (F := F)) W (Proc.devRef .tc main_v55) = targets (W (Proc.devRef .tc main_arg1)) := by
    after_results; rfl
  have h0 : after (indexOps2 (F := F)) W (Proc.devRef .tc main_v48) = W (Proc.devRef .tc main_v48) := by
    after_results
  have h3 : after (indexOps2 (F := F)) W (Proc.devRef .tc main_arg5) = W (Proc.devRef .tc main_arg5) := by
    after_results
  generalize after (indexOps2 (F := F)) W = Wa at h6 h7 h0 h3 ⊢
  after_results_simp
  rw [h6, h7, h0, h3]
  rfl

/-- A buffer the first stretch does not write is as the stretch found it. -/
theorem layer1_keeps_arg1 (W : Valuation τ sig (Elt F)) :
    after (aggregateOps1 (F := F)) (after (indexOps1 (F := F)) W) (Proc.devRef .tc main_arg1) = W (Proc.devRef .tc main_arg1) := by
  after_results_simp
theorem layer1_keeps_arg4 (W : Valuation τ sig (Elt F)) :
    after (aggregateOps1 (F := F)) (after (indexOps1 (F := F)) W) (Proc.devRef .tc main_arg4) = W (Proc.devRef .tc main_arg4) := by
  after_results_simp
theorem layer1_keeps_arg5 (W : Valuation τ sig (Elt F)) :
    after (aggregateOps1 (F := F)) (after (indexOps1 (F := F)) W) (Proc.devRef .tc main_arg5) = W (Proc.devRef .tc main_arg5) := by
  after_results_simp

/-- The result buffer after the whole program, from any contents `W`: the second aggregation of the second product of
    the rectified first aggregation of the first product. -/
theorem result_eq (W : Valuation τ sig (Elt F)) :
    after (ops (F := F)) W (Proc.devRef .tc main_v94)
      = conv (Host.dotGeneral dot_S10000x64_S64x64_S10000x64_1_0_0_1_n_n none
          (rectified (conv (Host.dotGeneral dot_S10000x10000_S10000x64_S10000x64_1_0_0_1_n_n none
              (W (Proc.devRef .tc main_arg0)) (W (Proc.devRef .tc main_arg2)))
            (W (Proc.devRef .tc main_arg1)) (W (Proc.devRef .tc main_arg3))))
          (W (Proc.devRef .tc main_arg4)))
        (W (Proc.devRef .tc main_arg1)) (W (Proc.devRef .tc main_arg5)) := by
  rw [ops_pieces, after_pieces, after_pieces, after_pieces, after_pieces, after_pieces]
  rw [layer2]
  have p2 : ∀ V : Valuation τ sig (Elt F), after (productOp2 (F := F)) V (Proc.devRef .tc main_v48)
      = Host.dotGeneral dot_S10000x64_S64x64_S10000x64_1_0_0_1_n_n none (V (Proc.devRef .tc main_v47)) (V (Proc.devRef .tc main_arg4)) := by
    intro V; after_results
  have p2a : ∀ V : Valuation τ sig (Elt F), after (productOp2 (F := F)) V (Proc.devRef .tc main_arg1) = V (Proc.devRef .tc main_arg1) := by
    intro V; after_results
  have p2b : ∀ V : Valuation τ sig (Elt F), after (productOp2 (F := F)) V (Proc.devRef .tc main_arg5) = V (Proc.devRef .tc main_arg5) := by
    intro V; after_results
  have p1 : ∀ V : Valuation τ sig (Elt F), after (productOp1 (F := F)) V (Proc.devRef .tc main_v0)
      = Host.dotGeneral dot_S10000x10000_S10000x64_S10000x64_1_0_0_1_n_n none (V (Proc.devRef .tc main_arg0)) (V (Proc.devRef .tc main_arg2)) := by
    intro V; after_results
  have p1a : ∀ V : Valuation τ sig (Elt F), after (productOp1 (F := F)) V (Proc.devRef .tc main_arg1) = V (Proc.devRef .tc main_arg1) := by
    intro V; after_results
  have p1b : ∀ V : Valuation τ sig (Elt F), after (productOp1 (F := F)) V (Proc.devRef .tc main_arg3) = V (Proc.devRef .tc main_arg3) := by
    intro V; after_results
  have p1c : ∀ V : Valuation τ sig (Elt F), after (productOp1 (F := F)) V (Proc.devRef .tc main_arg4) = V (Proc.devRef .tc main_arg4) := by
    intro V; after_results
  have p1d : ∀ V : Valuation τ sig (Elt F), after (productOp1 (F := F)) V (Proc.devRef .tc main_arg5) = V (Proc.devRef .tc main_arg5) := by
    intro V; after_results
  rw [p2, p2a, p2b, layer1, layer1_keeps_arg1, layer1_keeps_arg4, layer1_keeps_arg5, p1, p1a, p1b, p1c, p1d]

end Cert.ReferenceIdeal.Aggregate

end
-- ==== Proof.ReferenceValue.lean ====
/-
  The idealized reference's result as one function of its six arguments.

  The reference's two `dot_general`s are matrix products entry by entry (at the exact extended reals a contraction is a
  plain finite sum), so its result is the same two-layer network as the kernel's: the second aggregation of the
  product, by the second weights, of the rectified first aggregation of the product of the features by the first
  weights.
-/
import proofs.«127322_j82918638617247_1_alg».proof.Proof.ReferenceAggregate
import proofs.«127322_j82918638617247_1_alg».proof.Proof.LibMatrixProduct

set_option maxRecDepth 16384

noncomputable section

namespace Cert.ReferenceIdeal.Result

open Cert.ReferenceIdeal Cert.ReferenceIdeal.Gen Cert.ReferenceIdeal.HostRun Cert.ReferenceIdeal.Aggregate Cert.MatrixProduct
open Idealize.ShloMosaic Idealize.ShloMosaic.TcCoe Idealize.SL.Sem Idealize.ShloMosaic.StableHlo

/-- The two-layer network: aggregate the product of the features by the first weights, rectify, multiply by the
    second weights, aggregate again. -/
def network (x : (⟨S10000x10000, .f32⟩ : BufTy).Contents (Elt Ideal)) (ei : (⟨S2x320000, .i32⟩ : BufTy).Contents (Elt Ideal))
    (w1 : (⟨S10000x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S10000x64, .f32⟩ : BufTy).Contents (Elt Ideal) :=
  conv (mm (m := 10000) (k := 64) (n := 64) (rectified (conv (mm (m := 10000) (k := 10000) (n := 64) x w1) ei b1)) w2) ei b2

/-- The first `dot_general` is the matrix product. -/
theorem product1_eq (A : FVec Ideal S10000x10000 .f32) (B : FVec Ideal S10000x64 .f32) :
    Host.dotGeneral (F := Ideal) (φ₁ := .f32) (φ₂ := .f32) dot_S10000x10000_S10000x64_S10000x64_1_0_0_1_n_n none A B
      = mm (m := 10000) (k := 10000) (n := 64) A B :=
  dotGeneral_eq_mm (m := 10000) (k := 10000) (n := 64) dot_S10000x10000_S10000x64_S10000x64_1_0_0_1_n_n.wf none A B

/-- The second `dot_general` is the matrix product. -/
theorem product2_eq (A : FVec Ideal S10000x64 .f32) (B : FVec Ideal S64x64 .f32) :
    Host.dotGeneral (F := Ideal) (φ₁ := .f32) (φ₂ := .f32) dot_S10000x64_S64x64_S10000x64_1_0_0_1_n_n none A B
      = mm (m := 10000) (k := 64) (n := 64) A B :=
  dotGeneral_eq_mm (m := 10000) (k := 64) (n := 64) dot_S10000x64_S64x64_S10000x64_1_0_0_1_n_n.wf none A B

/-- The fold of the reference's operations, read at the result buffer, is the network of the contents of the arguments. -/
theorem result_eq (W : Valuation τ sig (Elt Ideal)) :
    after (ops (F := Ideal)) W (Proc.devRef .tc main_v94)
      = network (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [Aggregate.result_eq (F := Ideal) W, product1_eq, product2_eq]
  rfl

set_option maxHeartbeats 4000000 in
/-- No operation writes argument 0: the fold leaves it as it was. -/
theorem keeps_arg0 {F : FTy → Type} [FloatOps F] (W : Valuation τ sig (Elt F)) :
    after (ops (F := F)) W (Proc.devRef .tc main_arg0) = W (Proc.devRef .tc main_arg0) := by
  after_results_simp
set_option maxHeartbeats 4000000 in
/-- No operation writes argument 1: the fold leaves it as it was. -/
theorem keeps_arg1 {F : FTy → Type} [FloatOps F] (W : Valuation τ sig (Elt F)) :
    after (ops (F := F)) W (Proc.devRef .tc main_arg1) = W (Proc.devRef .tc main_arg1) := by
  after_results_simp
set_option maxHeartbeats 4000000 in
/-- No operation writes argument 2: the fold leaves it as it was. -/
theorem keeps_arg2 {F : FTy → Type} [FloatOps F] (W : Valuation τ sig (Elt F)) :
    after (ops (F := F)) W (Proc.devRef .tc main_arg2) = W (Proc.devRef .tc main_arg2) := by
  after_results_simp
set_option maxHeartbeats 4000000 in
/-- No operation writes argument 3: the fold leaves it as it was. -/
theorem keeps_arg3 {F : FTy → Type} [FloatOps F] (W : Valuation τ sig (Elt F)) :
    after (ops (F := F)) W (Proc.devRef .tc main_arg3) = W (Proc.devRef .tc main_arg3) := by
  after_results_simp
set_option maxHeartbeats 4000000 in
/-- No operation writes argument 4: the fold leaves it as it was. -/
theorem keeps_arg4 {F : FTy → Type} [FloatOps F] (W : Valuation τ sig (Elt F)) :
    after (ops (F := F)) W (Proc.devRef .tc main_arg4) = W (Proc.devRef .tc main_arg4) := by
  after_results_simp
set_option maxHeartbeats 4000000 in
/-- No operation writes argument 5: the fold leaves it as it was. -/
theorem keeps_arg5 {F : FTy → Type} [FloatOps F] (W : Valuation τ sig (Elt F)) :
    after (ops (F := F)) W (Proc.devRef .tc main_arg5) = W (Proc.devRef .tc main_arg5) := by
  after_results_simp

variable (m : (ℓ : Loc nD τ sig) → Buf (Elt Ideal) ℓ) (ρ : Dev nD → PrngReg)

/-- Every weakly fair execution of the idealized reference terminates, nothing faulting, with the result buffer at the
    network of the arguments and every argument array as launched. -/
theorem run : θ_run defs (onTc (τ := τ) (main (F := Ideal))) ⟨m, fun _ => 0, ρ⟩ (fun r => ∀ c : Dev nD,
      r.2.mem ((c.tc : Thread nD τ).loc main_v94)
        = network (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v94).trans (result_eq (launchContents m c)),
      (h c main_arg0).trans (keeps_arg0 (launchContents m c)),
      (h c main_arg1).trans (keeps_arg1 (launchContents m c)),
      (h c main_arg2).trans (keeps_arg2 (launchContents m c)),
      (h c main_arg3).trans (keeps_arg3 (launchContents m c)),
      (h c main_arg4).trans (keeps_arg4 (launchContents m c)),
      (h c main_arg5).trans (keeps_arg5 (launchContents m c))⟩)
    (run_fold (F := Ideal) m ρ)

end Cert.ReferenceIdeal.Result

end
-- ==== Proof.lean ====
/-
  Two-layer graph convolution: a Pallas kernel's program against its plain reference, equal as extended reals.

  Both programs compute, for node features x, an edge list ei, weights W1, W2 and biases b1, b2,
      conv (relu (conv (x · W1) ei b1) · W2) ei b2,
  where `conv h ei b` carries every edge's source row of h, scaled by deg^(-1/2)(source) · deg^(-1/2)(target), to the
  edge's target (self loops included), adds the rows up there and adds the bias. The two programs differ only in how
  the two matrix products are taken: the reference by the host's `dot_general`, the kernel by a pipelined region that
  hands the matrix unit 200 rows of the left operand at a time, narrowed to bf16, and writes each 200 × 64 block of
  the product back. At the exact extended reals narrowing is the identity and a contraction is a plain finite sum, so
  each region's output array is the whole matrix product (the 50 blocks tile the 10000 rows, and a row of a product
  depends on that row of the left factor only); every host operation around the products is the same function in
  both programs. No algebraic law beyond this is needed, and the finiteness of the inputs is never used.

  The frames of the two kernel programs are the generated ones; the reference's frame is its run with the result
  dropped; the ideal pass rewrote nothing, so `preserves` is trivial.
-/
import proofs.«127322_j82918638617247_1_alg».proof.Defs
import proofs.«127322_j82918638617247_1_alg».proof.Proof.Gen.Kernel
import proofs.«127322_j82918638617247_1_alg».proof.Proof.Gen.Kernel.Frame
import proofs.«127322_j82918638617247_1_alg».proof.Proof.Gen.KernelIdeal
import proofs.«127322_j82918638617247_1_alg».proof.Proof.Gen.KernelIdeal.Frame
import proofs.«127322_j82918638617247_1_alg».proof.Proof.Gen.ReferenceIdeal
import proofs.«127322_j82918638617247_1_alg».proof.Proof.Gen.Pre_finite_inputs
import proofs.«127322_j82918638617247_1_alg».proof.Proof.KernelValue
import proofs.«127322_j82918638617247_1_alg».proof.Proof.ReferenceValue
import Idealize.ShloMosaic.Adequacy
import Idealize.ShloMosaic.Init

set_option maxRecDepth 16384

noncomputable section

namespace Cert.Proof

open Idealize.ShloMosaic Idealize.ShloMosaic.TcCoe Idealize.SL.Sem

/-- The network the reference computes is the network the kernel computes: the same host operations, spelt once in
    each program, over the same matrix products. -/
theorem network_eq (x : (⟨Cert.KernelIdeal.S10000x10000, .f32⟩ : BufTy).Contents (Elt Ideal))
    (ei : (⟨Cert.KernelIdeal.S2x320000, .i32⟩ : BufTy).Contents (Elt Ideal))
    (w1 : (⟨Cert.KernelIdeal.S10000x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal)) :
    Cert.ReferenceIdeal.Result.network x ei w1 b1 w2 b2 = Cert.KernelIdeal.Result.network x ei w1 b1 w2 b2 := rfl

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Result.run m ρ)

/-- From memories agreeing on the arguments both idealized programs end with the result buffer at the network of the
    arguments: the kernel by its run read through the two regions and host stretches, the reference by the fold of its
    host operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Result.run m' ρ')
  obtain ⟨e0, e1, e2, e3, e4, e5⟩ := hagree c
  rw [e0, e1, e2, e3, e4, e5]
  exact network_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
